-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S8000x64 : Shape := ⟨2, ![8000, 64]⟩

abbrev nBuf : Space → Nat
  | .hbm => 35
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .bf16⟩
  | .local _ .vmem, ⟨5, _⟩ => ⟨S5000x64, .bf16⟩
  | .local _ .vmem, ⟨6, _⟩ => ⟨S8000x64, .f32⟩
  | .local _ .vmem, ⟨7, _⟩ => ⟨S8000x64, .f32⟩
  | .local _ .vmem, ⟨8, _⟩ => ⟨S8000x64, .bf16⟩
  | .local _ .vmem, ⟨9, _⟩ => ⟨S8000x64, .bf16⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  shapeCasts_S8000x64_S8000x64 : S8000x64.ShapeCasts S8000x64
  bcast_S_S50000x64 : S_.BroadcastsInDim S50000x64 (![] : Fin 0 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .bf16 = 32 ∨ (Rect.block (s := S800000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S800000x64.size a
  hwx1_6 : ∀ i : grid1.Coords, EltTy.bits .f32 = 32 ∨ (Rect.block (s := S800000x64) S8000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩
abbrev S800000x1 : Shape := ⟨2, ![800000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S50000x64, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S64x64, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S800000x64, .i1⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S800000x64, .f32⟩
  | .hbm, ⟨49, _⟩ => ⟨S800000x64, .f32⟩
  | .hbm, ⟨50, _⟩ => ⟨S64x64, .f32⟩
  | .hbm, ⟨51, _⟩ => ⟨S800000x64, .f32⟩
  | .hbm, ⟨52, _⟩ => ⟨S1x64, .f32⟩
  | .hbm, ⟨53, _⟩ => ⟨S800000x64, .f32⟩
  | .hbm, ⟨54, _⟩ => ⟨S800000x64, .f32⟩
  | .hbm, ⟨55, _⟩ => ⟨S_, .f32⟩
  | .hbm, ⟨56, _⟩ => ⟨S800000x64, .f32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S800000x64, .i1⟩
  | .hbm, ⟨61, _⟩ => ⟨S800000x64, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S800000x64, .f32⟩
  | .hbm, ⟨67, _⟩ => ⟨S800000x64, .f32⟩
  | .hbm, ⟨68, _⟩ => ⟨S800000x64, .f32⟩
  | .hbm, ⟨69, _⟩ => ⟨S_, .f32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S64x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .i1⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S64x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v17 : Ref sig .tc := ⟨.hbm, 46, rfl⟩
abbrev main_cst : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v25 : Ref sig .tc := ⟨.hbm, 68, rfl⟩
abbrev main_cst_1 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_v37 : Ref sig .tc := ⟨.hbm, 95, rfl⟩
abbrev main_cst_3 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program run from the launch to the return, with EVERY unscoped buffer of every core read
  back at the end: the three kernel regions and the three stretches of host operations between them leave each
  buffer at the last boundary's contents. The argument arrays and the result array are then single readings of
  this one statement.
-/
import proofs.«140131_j18227841204693_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every unscoped
    buffer `b` of every core `c` holds the contents `W6 m ρ c b` that the last region's exit leaves: the launch over the
    program's six segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array after the run is what the last region's write-backs leave of its output window. -/
theorem run_result : θ_run defs (onTc (τ := τ) (main (F := F))) ⟨m, fun _ => 0, ρ⟩ (fun r => ∀ c : Dev nD,
      r.2.mem ((c.tc : Thread nD τ).loc main_v17) = (dat2 (V5 m ρ) c).arrAt 5 cfg2.N
      ∧ (∀ b : Ref sig .tc, ¬ (Proc.devRef .tc b : DevRef τ sig).isScoped →
          r.2.mem ((c.tc : Thread nD τ).loc b) = W6 m ρ c (Proc.devRef .tc b))) :=
  (θ_run defs _ _).mono (fun r h c =>
    ⟨(h c _ (mem_uc main_v17 (by decide))).trans (W6_arr m ρ c 5), fun b hb => h c _ (mem_uc b hb)⟩) (run_all m ρ)

end Cert.KernelIdeal.Whole

end
-- ==== Proof.Rows.lean ====
/-
  The three dense stages of the network, one output ROW at a time, over the extended reals.

  Every stage of this program acts on each row of its row-major operand independently of the other rows: a row of 64
  entries goes through a linear layer `x ↦ x · Wᵀ + b` (entry `j` is `Σ_k x k · W(j, k) + b j`), possibly through the
  shifted softplus `z ↦ max z 0 + log (1 + exp (-|z|)) - c` (`c` the single-precision word nearest `log 2`, the same word
  in both programs), and through a second linear layer. The functions below state these rows once; the kernel's blocks
  and the reference's whole arrays are both read back to them.
-/
import Idealize.ShloMosaic.Lib.ValueIdx
import Idealize.ShloMosaic.PureOps.Ideal

noncomputable section

open scoped BigOperators

namespace Cert.Rows

open Idealize.ShloMosaic Idealize.ShloMosaic.ValueIdx

/-- The shift of the softplus: the binary32 word both programs print for `log 2`. -/
def shift : EReal := Ideal.ofBits .f32 0x3F317218#32

/-- The shifted softplus on the extended reals, in the numerically stable form both programs compute:
    `max z 0 + log (1 + exp (-|z|)) - shift`, with `|z| = max z (-z)`. -/
def ssp (z : EReal) : EReal := max z 0 + Ideal.log1p (Ideal.exp (-(max z (-z)))) - shift

/-- One row through a linear layer with weights `W` of shape [64, 64] stored output-major (`x · Wᵀ + b`). -/
def dense (x : Fin 64 → EReal) (W : (⟨2, ![64, 64]⟩ : Shape).Idx → EReal) (b : Fin 64 → EReal) (j : Fin 64) : EReal :=
  (∑ k : Fin 64, x k * W (ix2 j k)) + b j

/-- The node projection of one node's feature row. -/
def nodeRow (x : Fin 64 → EReal) (W : (⟨2, ![64, 64]⟩ : Shape).Idx → EReal) (b : Fin 64 → EReal) (j : Fin 64) : EReal :=
  dense x W b j

/-- One edge's message row: the gathered source row `h` times the two-layer filter of the edge's feature row `e`. -/
def edgeRow (e h : Fin 64 → EReal) (W1 : (⟨2, ![64, 64]⟩ : Shape).Idx → EReal) (b1 : Fin 64 → EReal)
    (W2 : (⟨2, ![64, 64]⟩ : Shape).Idx → EReal) (b2 : Fin 64 → EReal) (j : Fin 64) : EReal :=
  h j * ssp (dense (fun k => ssp (dense e W1 b1 k)) W2 b2 j)

/-- One node's output row from its aggregated message row `a`: linear, shifted softplus, linear. -/
def outRow (a : Fin 64 → EReal) (Wc : (⟨2, ![64, 64]⟩ : Shape).Idx → EReal) (bc : Fin 64 → EReal)
    (Wp : (⟨2, ![64, 64]⟩ : Shape).Idx → EReal) (bp : Fin 64 → EReal) (j : Fin 64) : EReal :=
  dense (fun k => ssp (dense a Wc bc k)) Wp bp j

/-- No extended real differs from itself: the guard "is not a number" never fires. -/
theorem cmp_ne_self (p : CmpFPredicate) (hp : p = .one ∨ p = .une) (x : EReal) : Ideal.cmp p x x = 0#1 := by
  rcases hp with rfl | rfl <;> simp [Ideal.cmp]

/-- The kernel's spelling of the shifted softplus (`0 - |z - 0|` under the exponential, the guard `z - 0 ≠ z - 0`
    selecting `z + 0`) is `ssp`. -/
theorem ssp_kernel (z : EReal) :
    Scalar.select (Ideal.cmp .one (z - 0) (z - 0)) (z + 0)
        (max z 0 + Ideal.log1p (Ideal.exp (0 - max (z - 0) (-(z - 0))))) - shift = ssp z := by
  rw [cmp_ne_self _ (.inl rfl)]
  simp only [Scalar.select, sub_zero, zero_sub, ssp]
  rfl

/-- The reference's spelling (`-|z - 0|` under the exponential) is `ssp` too. -/
theorem ssp_reference (z : EReal) :
    Scalar.select (Ideal.cmp .une (z - 0) (z - 0)) (z + 0)
        (max z 0 + Ideal.log1p (Ideal.exp (-(max (z - 0) (-(z - 0)))))) - shift = ssp z := by
  rw [cmp_ne_self _ (.inr rfl)]
  simp only [Scalar.select, sub_zero, ssp]
  rfl

end Cert.Rows

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Pay.lean ====
/-
  The three kernel bodies read at an entry. Each body computes, on a tile of whole rows, the row functions of
  `Rows`: a matrix product with the transposed weights into a zero accumulator plus the bias row spread over the tile is a
  linear layer of each row; the stable softplus with its shift is `Rows.ssp` entrywise; a change of float format is the
  identity over the extended reals.
-/
import proofs.«140131_j18227841204693_2_alg».proof.Proof.Gen.KernelIdeal.Skeleton
import proofs.«140131_j18227841204693_2_alg».proof.Proof.Rows
import proofs.«140131_j18227841204693_2_alg».proof.Proof.LibMatmulNN
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- A [1, 64] bias row spread over a tile of `M` rows: entry `(p, q)` is the row's entry `q`. -/
theorem bias_row (M : Nat) (v : (⟨2, ![1, 64]⟩ : Shape).Idx → EReal) (h1) (h2) (p : Fin M) (q : Fin 64) :
    broadcastTo (⟨2, ![M, 64]⟩ : Shape) (shapeCast (⟨2, ![1, 64]⟩ : Shape) v h1) h2 (ix2 p q) = v (ix2 0 q) := by
  rw [shapeCast_self]
  refine broadcastTo_apply v h2 _ _ fun a => ?_
  match a with
  | ⟨0, _⟩ => rfl
  | ⟨1, _⟩ => rfl

/-- A linear layer on a tile of `M` rows: the product of the tile with the transposed [64, 64] weights, accumulated from
    zero, plus the bias row, at `(p, q)` is `Rows.dense` of row `p`. -/
theorem dense_tile (M : Nat) (d : DotDims ⟨2, ![M, 64]⟩ ⟨2, ![64, 64]⟩ ⟨2, ![M, 64]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, 64]⟩ .bf16) (W : FVec Ideal ⟨2, ![64, 64]⟩ .bf16) (b : FVec Ideal ⟨2, ![1, 64]⟩ .f32) (ht) (h1) (h2)
    (p : Fin M) (q : Fin 64) :
    matmul d none A (transpose (⟨2, ![64, 64]⟩ : Shape) [1, 0] W ht) (constant ⟨2, ![M, 64]⟩ .f32 0x00000000#32) (ix2 p q)
      + broadcastTo (⟨2, ![M, 64]⟩ : Shape) (shapeCast (⟨2, ![1, 64]⟩ : Shape) b h1) h2 (ix2 p q)
    = Rows.dense (fun k => A (ix2 p k)) W (fun j => b (ix2 0 j)) q := by
  refine (congrArg₂ (· + ·) (LibMatmulNN.matmul_nn_apply d hlc hrc hln hrn hlb hrb none A _ p q) (bias_row M b h1 h2 p q)).trans ?_
  unfold Rows.dense
  refine congrArg (· + b (ix2 0 q)) (Finset.sum_congr rfl fun k _ => ?_)
  rw [transpose_ix2_apply]

/-- The kernel's text of the shifted softplus of a vector `Z`, operation by operation. -/
abbrev sspVec {S : Shape} (Z : FVec Ideal S .f32) : FVec Ideal S .f32 :=
  subf (select (cmpf .one (subf Z (broadcast S (Scalar.ofBits .f32 0x00000000#32))) (subf Z (broadcast S (Scalar.ofBits .f32 0x00000000#32))))
      (addf Z (broadcast S (Scalar.ofBits .f32 0x00000000#32)))
      (addf (maximumf Z (broadcast S (Scalar.ofBits .f32 0x00000000#32)))
        (log1p (exp (subf (broadcast S (Scalar.ofBits .f32 0x00000000#32)) (absf (subf Z (broadcast S (Scalar.ofBits .f32 0x00000000#32)))))))))
    (broadcast S (Scalar.ofBits .f32 0x3F317218#32))

/-- Entrywise it is `Rows.ssp`. -/
theorem ssp_tile {S : Shape} (Z : FVec Ideal S .f32) (i : S.Idx) : sspVec Z i = Rows.ssp (Z i) := by
  simp only [sspVec, subf, select, cmpf, addf, maximumf, log1p, exp, absf, broadcast]
  simp only [Ideal.ofBits_def, Ideal.ofBits_zero_f32]
  exact Rows.ssp_kernel (Z i)

/-- Two linear layers with the shifted softplus between them, on a tile of `M` rows, at `(p, q)`. -/
theorem two_layer_tile (M : Nat) (d : DotDims ⟨2, ![M, 64]⟩ ⟨2, ![64, 64]⟩ ⟨2, ![M, 64]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![M, 64]⟩ .bf16) (W1 : FVec Ideal ⟨2, ![64, 64]⟩ .bf16) (b1 : FVec Ideal ⟨2, ![1, 64]⟩ .f32)
    (W2 : FVec Ideal ⟨2, ![64, 64]⟩ .bf16) (b2 : FVec Ideal ⟨2, ![1, 64]⟩ .f32) (ht1) (h11) (h12) (ht2) (h21) (h22) (hb)
    (p : Fin M) (q : Fin 64) :
    matmul d none
        (truncf .bf16 (sspVec (addf (matmul d none X (transpose (⟨2, ![64, 64]⟩ : Shape) [1, 0] W1 ht1) (constant ⟨2, ![M, 64]⟩ .f32 0x00000000#32))
          (broadcastTo (⟨2, ![M, 64]⟩ : Shape) (shapeCast (⟨2, ![1, 64]⟩ : Shape) b1 h11) h12))) hb)
        (transpose (⟨2, ![64, 64]⟩ : Shape) [1, 0] W2 ht2) (constant ⟨2, ![M, 64]⟩ .f32 0x00000000#32) (ix2 p q)
      + broadcastTo (⟨2, ![M, 64]⟩ : Shape) (shapeCast (⟨2, ![1, 64]⟩ : Shape) b2 h21) h22 (ix2 p q)
    = Rows.dense (fun k => Rows.ssp (Rows.dense (fun k' => X (ix2 p k')) W1 (fun j => b1 (ix2 0 j)) k)) W2 (fun j => b2 (ix2 0 j)) q := by
  refine (dense_tile M d hlc hrc hln hrn hlb hrb _ W2 b2 ht2 h21 h22 p q).trans ?_
  refine congrArg (fun a => Rows.dense a W2 (fun j => b2 (ix2 0 j)) q) (funext fun k => ?_)
  refine (ssp_tile _ (ix2 p k)).trans (congrArg Rows.ssp ?_)
  exact dense_tile M d hlc hrc hln hrn hlb hrb X W1 b1 ht1 h11 h12 p k

/-- The node projection's body at `(p, q)` of its tile of 5000 rows. -/
theorem node_pay (x0 : Vec Ideal S5000x64 .f32) (x1 : Vec Ideal S64x64 .f32) (x2 : Vec Ideal S1x64 .f32) (p : Fin 5000) (q : Fin 64) :
    k0_pay1 (F := Ideal) x0 x1 x2 (ix2 p q) = Rows.nodeRow (fun k => x0 (ix2 p k)) x1 (fun j => x2 (ix2 0 j)) q := by
  unfold k0_pay1 Rows.nodeRow
  exact dense_tile 5000 dot_S5000x64_S64x64_S5000x64_1_0_0_1_n_n rfl rfl rfl rfl rfl rfl _ _ x2 _ _ _ p q

/-- The output projection's body at `(p, q)` of its tile of 5000 rows. -/
theorem out_pay (x0 : Vec Ideal S5000x64 .f32) (x1 : Vec Ideal S64x64 .f32) (x2 : Vec Ideal S1x64 .f32) (x3 : Vec Ideal S64x64 .f32)
    (x4 : Vec Ideal S1x64 .f32) (p : Fin 5000) (q : Fin 64) :
    k2_pay1 (F := Ideal) x0 x1 x2 x3 x4 (ix2 p q)
      = Rows.outRow (fun k => x0 (ix2 p k)) x1 (fun j => x2 (ix2 0 j)) x3 (fun j => x4 (ix2 0 j)) q := by
  unfold k2_pay1 Rows.outRow
  refine (two_layer_tile 5000 dot_S5000x64_S64x64_S5000x64_1_0_0_1_n_n rfl rfl rfl rfl rfl rfl _ _ x2 _ x4 _ _ _ _ _ _ _ p q).trans ?_
  refine congrArg (fun a => Rows.dense (fun k => Rows.ssp (Rows.dense a x1 (fun j => x2 (ix2 0 j)) k)) x3 (fun j => x4 (ix2 0 j)) q) (funext fun k' => ?_)
  exact congrFun (shapeCast_self x0 _) _

/-- The edge body's second pre-activation at `(p, q)` of its tile of 8000 rows. -/
theorem edge_hidden (x0 : Vec Ideal S8000x64 .f32) (x2 : Vec Ideal S64x64 .f32) (x3 : Vec Ideal S1x64 .f32) (x4 : Vec Ideal S64x64 .f32)
    (x5 : Vec Ideal S1x64 .f32) (p : Fin 8000) (q : Fin 64) :
    k1_pay2 (F := Ideal) x0 x2 x3 x4 x5 (ix2 p q)
      = Rows.dense (fun k => Rows.ssp (Rows.dense (fun k' => x0 (ix2 p k')) x2 (fun j => x3 (ix2 0 j)) k)) x4 (fun j => x5 (ix2 0 j)) q := by
  unfold k1_pay2
  exact two_layer_tile 8000 dot_S8000x64_S64x64_S8000x64_1_0_0_1_n_n rfl rfl rfl rfl rfl rfl _ _ x3 _ x5 _ _ _ _ _ _ _ p q

/-- The edge body's stored value at `(p, q)`: the gathered row times the filter. -/
theorem edge_pay (x0 : Vec Ideal S8000x64 .f32) (x1 : Vec Ideal S8000x64 .bf16) (x2 : Vec Ideal S64x64 .f32) (x3 : Vec Ideal S1x64 .f32)
    (x4 : Vec Ideal S64x64 .f32) (x5 : Vec Ideal S1x64 .f32) (p : Fin 8000) (q : Fin 64) :
    k1_pay1 (F := Ideal) (k1_pay3 x0 x2 x3 x4 x5) (k1_pay5 x0 x2 x3 x4 x5) (k1_pay6 x0 x2 x3 x4 x5) (k1_pay7 x0 x2 x3 x4 x5) x1 (ix2 p q)
      = Rows.edgeRow (fun k => x0 (ix2 p k)) (fun k => x1 (ix2 p k)) x2 (fun j => x3 (ix2 0 j)) x4 (fun j => x5 (ix2 0 j)) q := by
  unfold k1_pay1 k1_pay3 k1_pay5 k1_pay6 k1_pay7 k1_pay4 Rows.edgeRow
  refine congrArg₂ (· * ·) (congrFun (shapeCast_self x1 _) _) ?_
  exact (ssp_tile (k1_pay2 x0 x2 x3 x4 x5) (ix2 p q)).trans (congrArg Rows.ssp (edge_hidden x0 x2 x3 x4 x5 p q))

end Cert.KernelIdeal.Pay

end
-- ==== Proof.BlocksNode.lean ====
/-
  The node projection's array after its region: the ten tiles of 5000 rows the grid points write back are the
  restrictions of ONE function of the arrays the region finds — entry `(r, j)` is `Rows.nodeRow` of row `r` — and they tile
  the whole [50000, 64] array, so the array ends at that function.
-/
import proofs.«140131_j18227841204693_2_alg».proof.Proof.Gen.KernelIdeal.Frame
import proofs.«140131_j18227841204693_2_alg».proof.Proof.Pay

set_option maxRecDepth 16384

noncomputable section

namespace Cert.KernelIdeal.Node

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The function the region's output array ends at, of the arrays it finds: features, weights, bias row. -/
abbrev G (A : S50000x64.Idx → EReal) (W : S64x64.Idx → EReal) (b : S1x64.Idx → EReal) : S50000x64.Idx → EReal :=
  fun i => Rows.nodeRow (fun k => A (ix2 (i 0) k)) W (fun j => b (ix2 0 j)) (i 1)

/-- The block index maps over the grid: the feature and output windows walk the row tiles, weights and bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is tile `t` of `G` of the arrays as the region finds them. -/
theorem flushed_eq (c : Dev nD) (t : Fin cfg0.N) :
    (dat0 (F := Ideal) V c).flushed 3 t
      = ((cfg0.win 3).blk t).view.read (Elt Ideal) (G (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = G (V c main_arg0) (V c main_arg4) (V c main_v0) (((cfg0.win 3).blk t).view.emb (ix2 p q))
  refine (Pay.node_pay (iblk0 V c 0 t) (iblk0 V c 1 t) (iblk0 V c 2 t) p q).trans ?_
  have hE1 : ((cfg0.win 3).blk t).view.emb (ix2 p q) 1 = q :=
    Fin.ext (show win0_3.index t (1 : Fin 2) * 64 + 1 * q.val = q.val by rw [e31]; omega)
  have h0 : (fun k : Fin 64 => iblk0 V c 0 t (ix2 p k))
      = fun k : Fin 64 => V c main_arg0 (ix2 (((cfg0.win 3).blk t).view.emb (ix2 p q) 0) k) := funext fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; rw [e00, e30]
    | ⟨1, _⟩ => show win0_0.index t (1 : Fin 2) * 64 + 1 * k.val = k.val; rw [e01]; omega
  have h1 : iblk0 V c 1 t = V c main_arg4 := funext fun y => by
    show V c main_arg4 (((cfg0.win 1).blk t).view.emb y) = _
    refine congrArg (V c main_arg4) (funext fun a => Fin.ext ?_)
    match a with
    | ⟨0, _⟩ => show win0_1.index t (0 : Fin 2) * 64 + 1 * (y 0).val = (y 0).val; rw [e10]; omega
    | ⟨1, _⟩ => show win0_1.index t (1 : Fin 2) * 64 + 1 * (y 1).val = (y 1).val; rw [e11]; omega
  have h2 : (fun j : Fin 64 => iblk0 V c 2 t (ix2 0 j)) = fun j : Fin 64 => V c main_v0 (ix2 0 j) := funext fun j => by
    show V c main_v0 (((cfg0.win 2).blk t).view.emb (ix2 0 j)) = _
    refine congrArg (V c main_v0) (funext fun a => Fin.ext ?_)
    match a with
    | ⟨0, _⟩ => show win0_2.index t (0 : Fin 2) * 1 + 1 * 0 = 0; rw [e20]
    | ⟨1, _⟩ => show win0_2.index t (1 : Fin 2) * 64 + 1 * j.val = j.val; rw [e21]; omega
  show Rows.nodeRow _ _ _ q = Rows.nodeRow _ _ _ (((cfg0.win 3).blk t).view.emb (ix2 p q) 1)
  rw [hE1, h0, h1, h2]

/-- An index of the array is in point `t`'s tile iff each coordinate is in the tile's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Row `r` lies in the tile of point `r / 5000`: the tiles cover the array. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  let t : Fin cfg0.N := ⟨(i 0).val / 5000, by show (i 0).val / 5000 < 10; omega⟩
  obtain ⟨e00, e01, e10, e11, e20, e21, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 64 ≤ (i 1).val ∧ (i 1).val < win0_3.index t (1 : Fin 2) * 64 + 64; rw [e31]; omega

/-- THE ARRAY after the region: `G` of the arrays as the region finds them. -/
theorem final (c : Dev nD) :
    (dat0 (F := Ideal) V c).arrAt 3 cfg0.N = G (V c main_arg0) (V c main_arg4) (V c main_v0) :=
  (dat0 (F := Ideal) V c).arrAt_eq_of_cover 3 (G (V c main_arg0) (V c main_arg4) (V c main_v0)) (fun t _ => flushed_eq V c t) cover

end Cert.KernelIdeal.Node

end
-- ==== Proof.BlocksEdge.lean ====
/-
  The edge messages' array after its region: the hundred tiles of 8000 rows the grid points write back are the
  restrictions of ONE function of the arrays the region finds — entry `(r, j)` is `Rows.edgeRow` of row `r` of the edge
  features and of the gathered source rows — and they tile the whole [800000, 64] array.
-/
import proofs.«140131_j18227841204693_2_alg».proof.Proof.Gen.KernelIdeal.Frame
import proofs.«140131_j18227841204693_2_alg».proof.Proof.Pay

set_option maxRecDepth 16384

noncomputable section

namespace Cert.KernelIdeal.Edge

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The function the region's output array ends at, of the arrays it finds: edge features, gathered source rows, the
    two layers' weights and bias rows. -/
abbrev G (A : S800000x64.Idx → EReal) (H : S800000x64.Idx → EReal) (W1 : S64x64.Idx → EReal) (b1 : S1x64.Idx → EReal)
    (W2 : S64x64.Idx → EReal) (b2 : S1x64.Idx → EReal) : S800000x64.Idx → EReal :=
  fun i => Rows.edgeRow (fun k => A (ix2 (i 0) k)) (fun k => H (ix2 (i 0) k)) W1 (fun j => b1 (ix2 0 j)) W2 (fun j => b2 (ix2 0 j)) (i 1)

/-- The block index maps over the grid: the row-tiled windows walk the row tiles, weights and bias rows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is tile `t` of `G` of the arrays as the region finds them. -/
theorem flushed_eq (c : Dev nD) (t : Fin cfg1.N) :
    (dat1 (F := Ideal) V c).flushed 6 t
      = ((cfg1.win 6).blk t).view.read (Elt Ideal) (G (V c main_arg1) (V c main_v12) (V c main_arg6) (V c main_v1) (V c main_arg8) (V c main_v2)) := by
  show (cfg1.win 6).cut (grid1.coords t) ((dat1 V c).after 6 t) = _
  rw [after1_6]
  unfold out1_6
  rw [View.canon_unit_zero hz]
  simp only [View.ld_unit_zero (S := S8000x64) hz, View.ld_unit_zero (S := S64x64) hz, View.ld_unit_zero (S := S1x64) hz]
  obtain ⟨e00, e01, e10, e11, e20, e21, e30, e31, e40, e41, e50, e51, e60, e61⟩ := idx_facts t
  funext j
  obtain ⟨p, q, rfl⟩ : ∃ (p : Fin 8000) (q : Fin 64), j = ix2 p q := ⟨j 0, j 1, eq_ix2 j⟩
  show k1_pay1 (k1_pay3 (iblk1 V c 0 t) (iblk1 V c 2 t) (iblk1 V c 3 t) (iblk1 V c 4 t) (iblk1 V c 5 t)) (k1_pay5 (iblk1 V c 0 t) (iblk1 V c 2 t) (iblk1 V c 3 t) (iblk1 V c 4 t) (iblk1 V c 5 t)) (k1_pay6 (iblk1 V c 0 t) (iblk1 V c 2 t) (iblk1 V c 3 t) (iblk1 V c 4 t) (iblk1 V c 5 t)) (k1_pay7 (iblk1 V c 0 t) (iblk1 V c 2 t) (iblk1 V c 3 t) (iblk1 V c 4 t) (iblk1 V c 5 t)) (iblk1 V c 1 t) (ix2 p q)
    = G (V c main_arg1) (V c main_v12) (V c main_arg6) (V c main_v1) (V c main_arg8) (V c main_v2) (((cfg1.win 6).blk t).view.emb (ix2 p q))
  refine (Pay.edge_pay (iblk1 V c 0 t) (iblk1 V c 1 t) (iblk1 V c 2 t) (iblk1 V c 3 t) (iblk1 V c 4 t) (iblk1 V c 5 t) p q).trans ?_
  have hE1 : ((cfg1.win 6).blk t).view.emb (ix2 p q) 1 = q :=
    Fin.ext (show win1_6.index t (1 : Fin 2) * 64 + 1 * q.val = q.val by rw [e61]; omega)
  have h0 : (fun k : Fin 64 => iblk1 V c 0 t (ix2 p k))
      = fun k : Fin 64 => V c main_arg1 (ix2 (((cfg1.win 6).blk t).view.emb (ix2 p q) 0) k) := funext fun k => by
    show V c main_arg1 (((cfg1.win 0).blk t).view.emb (ix2 p k)) = _
    refine congrArg (V c main_arg1) (funext fun a => Fin.ext ?_)
    match a with
    | ⟨0, _⟩ => show win1_0.index t (0 : Fin 2) * 8000 + 1 * p.val = win1_6.index t (0 : Fin 2) * 8000 + 1 * p.val; rw [e00, e60]
    | ⟨1, _⟩ => show win1_0.index t (1 : Fin 2) * 64 + 1 * k.val = k.val; rw [e01]; omega
  have h1 : (fun k : Fin 64 => iblk1 V c 1 t (ix2 p k))
      = fun k : Fin 64 => V c main_v12 (ix2 (((cfg1.win 6).blk t).view.emb (ix2 p q) 0) k) := funext fun k => by
    show V c main_v12 (((cfg1.win 1).blk t).view.emb (ix2 p k)) = _
    refine congrArg (V c main_v12) (funext fun a => Fin.ext ?_)
    match a with
    | ⟨0, _⟩ => show win1_1.index t (0 : Fin 2) * 8000 + 1 * p.val = win1_6.index t (0 : Fin 2) * 8000 + 1 * p.val; rw [e10, e60]
    | ⟨1, _⟩ => show win1_1.index t (1 : Fin 2) * 64 + 1 * k.val = k.val; rw [e11]; omega
  have h2 : iblk1 V c 2 t = V c main_arg6 := funext fun y => by
    show V c main_arg6 (((cfg1.win 2).blk t).view.emb y) = _
    refine congrArg (V c main_arg6) (funext fun a => Fin.ext ?_)
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  have h3 : (fun j : Fin 64 => iblk1 V c 3 t (ix2 0 j)) = fun j : Fin 64 => V c main_v1 (ix2 0 j) := funext fun j => by
    show V c main_v1 (((cfg1.win 3).blk t).view.emb (ix2 0 j)) = _
    refine congrArg (V c main_v1) (funext fun a => Fin.ext ?_)
    match a with
    | ⟨0, _⟩ => show win1_3.index t (0 : Fin 2) * 1 + 1 * 0 = 0; rw [e30]
    | ⟨1, _⟩ => show win1_3.index t (1 : Fin 2) * 64 + 1 * j.val = j.val; rw [e31]; omega
  have h4 : iblk1 V c 4 t = V c main_arg8 := funext fun y => by
    show V c main_arg8 (((cfg1.win 4).blk t).view.emb y) = _
    refine congrArg (V c main_arg8) (funext fun a => Fin.ext ?_)
    match a with
    | ⟨0, _⟩ => show win1_4.index t (0 : Fin 2) * 64 + 1 * (y 0).val = (y 0).val; rw [e40]; omega
    | ⟨1, _⟩ => show win1_4.index t (1 : Fin 2) * 64 + 1 * (y 1).val = (y 1).val; rw [e41]; omega
  have h5 : (fun j : Fin 64 => iblk1 V c 5 t (ix2 0 j)) = fun j : Fin 64 => V c main_v2 (ix2 0 j) := funext fun j => by
    show V c main_v2 (((cfg1.win 5).blk t).view.emb (ix2 0 j)) = _
    refine congrArg (V c main_v2) (funext fun a => Fin.ext ?_)
    match a with
    | ⟨0, _⟩ => show win1_5.index t (0 : Fin 2) * 1 + 1 * 0 = 0; rw [e50]
    | ⟨1, _⟩ => show win1_5.index t (1 : Fin 2) * 64 + 1 * j.val = j.val; rw [e51]; omega
  show Rows.edgeRow _ _ _ _ _ _ q = Rows.edgeRow _ _ _ _ _ _ (((cfg1.win 6).blk t).view.emb (ix2 p q) 1)
  rw [hE1, h0, h1, h2, h3, h4, h5]

/-- An index of the array is in point `t`'s tile iff each coordinate is in the tile's range on its axis. -/
theorem mem_blk (t : Fin cfg1.N) (i : S800000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v13).slice (win1_6.rect t)).set ↔ _
  rw [View.set_slice_whole, Rect.mem_set_unit]
  exact Iff.rfl

/-- Row `r` lies in the tile of point `r / 8000`: the tiles cover the array. -/
theorem cover (i : S800000x64.Idx) :
    ∃ t : Fin cfg1.N, (cfg1.win 6).flush t = true ∧ i ∈ ((cfg1.win 6).blk t).view.set := by
  have hi0 : (i 0).val < 800000 := (i 0).isLt
  have hi1 : (i 1).val < 64 := (i 1).isLt
  let t : Fin cfg1.N := ⟨(i 0).val / 8000, by show (i 0).val / 8000 < 100; omega⟩
  obtain ⟨e00, e01, e10, e11, e20, e21, e30, e31, e40, e41, e50, e51, e60, e61⟩ := idx_facts t
  have ht : t.val = (i 0).val / 8000 := rfl
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; rw [e60, ht]; omega
  | ⟨1, _⟩ => show win1_6.index t (1 : Fin 2) * 64 ≤ (i 1).val ∧ (i 1).val < win1_6.index t (1 : Fin 2) * 64 + 64; rw [e61]; omega

/-- THE ARRAY after the region: `G` of the arrays as the region finds them. -/
theorem final (c : Dev nD) :
    (dat1 (F := Ideal) V c).arrAt 6 cfg1.N = G (V c main_arg1) (V c main_v12) (V c main_arg6) (V c main_v1) (V c main_arg8) (V c main_v2) :=
  (dat1 (F := Ideal) V c).arrAt_eq_of_cover 6 (G (V c main_arg1) (V c main_v12) (V c main_arg6) (V c main_v1) (V c main_arg8) (V c main_v2)) (fun t _ => flushed_eq V c t) cover

end Cert.KernelIdeal.Edge

end
-- ==== Proof.BlocksOut.lean ====
/-
  The output array after the last region: the ten tiles of 5000 rows the grid points write back are the restrictions
  of ONE function of the arrays the region finds — entry `(r, j)` is `Rows.outRow` of row `r` of the aggregated messages —
  and they tile the whole [50000, 64] array.
-/
import proofs.«140131_j18227841204693_2_alg».proof.Proof.Gen.KernelIdeal.Frame
import proofs.«140131_j18227841204693_2_alg».proof.Proof.Pay

set_option maxRecDepth 16384

noncomputable section

namespace Cert.KernelIdeal.Out

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The function the region's output array ends at, of the arrays it finds: aggregated messages, the two layers'
    weights and bias rows. -/
abbrev G (A : S50000x64.Idx → EReal) (Wc : S64x64.Idx → EReal) (bc : S1x64.Idx → EReal)
    (Wp : S64x64.Idx → EReal) (bp : S1x64.Idx → EReal) : S50000x64.Idx → EReal :=
  fun i => Rows.outRow (fun k => A (ix2 (i 0) k)) Wc (fun j => bc (ix2 0 j)) Wp (fun j => bp (ix2 0 j)) (i 1)

/-- The block index maps over the grid: the row-tiled windows walk the row tiles, weights and bias rows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is tile `t` of `G` of the arrays as the region finds them. -/
theorem flushed_eq (c : Dev nD) (t : Fin cfg2.N) :
    (dat2 (F := Ideal) V c).flushed 5 t
      = ((cfg2.win 5).blk t).view.read (Elt Ideal) (G (V c main_v16) (V c main_arg10) (V c main_v3) (V c main_arg12) (V c main_v4)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (ix2 p q)
    = G (V c main_v16) (V c main_arg10) (V c main_v3) (V c main_arg12) (V c main_v4) (((cfg2.win 5).blk t).view.emb (ix2 p q))
  refine (Pay.out_pay (iblk2 V c 0 t) (iblk2 V c 1 t) (iblk2 V c 2 t) (iblk2 V c 3 t) (iblk2 V c 4 t) p q).trans ?_
  have hE1 : ((cfg2.win 5).blk t).view.emb (ix2 p q) 1 = q :=
    Fin.ext (show win2_5.index t (1 : Fin 2) * 64 + 1 * q.val = q.val by rw [e51]; omega)
  have h0 : (fun k : Fin 64 => iblk2 V c 0 t (ix2 p k))
      = fun k : Fin 64 => V c main_v16 (ix2 (((cfg2.win 5).blk t).view.emb (ix2 p q) 0) k) := funext fun k => by
    show V c main_v16 (((cfg2.win 0).blk t).view.emb (ix2 p k)) = _
    refine congrArg (V c main_v16) (funext fun a => Fin.ext ?_)
    match a with
    | ⟨0, _⟩ => show win2_0.index t (0 : Fin 2) * 5000 + 1 * p.val = win2_5.index t (0 : Fin 2) * 5000 + 1 * p.val; rw [e00, e50]
    | ⟨1, _⟩ => show win2_0.index t (1 : Fin 2) * 64 + 1 * k.val = k.val; rw [e01]; omega
  have h1 : iblk2 V c 1 t = V c main_arg10 := funext fun y => by
    show V c main_arg10 (((cfg2.win 1).blk t).view.emb y) = _
    refine congrArg (V c main_arg10) (funext fun a => Fin.ext ?_)
    match a with
    | ⟨0, _⟩ => show win2_1.index t (0 : Fin 2) * 64 + 1 * (y 0).val = (y 0).val; rw [e10]; omega
    | ⟨1, _⟩ => show win2_1.index t (1 : Fin 2) * 64 + 1 * (y 1).val = (y 1).val; rw [e11]; omega
  have h2 : (fun j : Fin 64 => iblk2 V c 2 t (ix2 0 j)) = fun j : Fin 64 => V c main_v3 (ix2 0 j) := funext fun j => by
    show V c main_v3 (((cfg2.win 2).blk t).view.emb (ix2 0 j)) = _
    refine congrArg (V c main_v3) (funext fun a => Fin.ext ?_)
    match a with
    | ⟨0, _⟩ => show win2_2.index t (0 : Fin 2) * 1 + 1 * 0 = 0; rw [e20]
    | ⟨1, _⟩ => show win2_2.index t (1 : Fin 2) * 64 + 1 * j.val = j.val; rw [e21]; omega
  have h3 : iblk2 V c 3 t = V c main_arg12 := funext fun y => by
    show V c main_arg12 (((cfg2.win 3).blk t).view.emb y) = _
    refine congrArg (V c main_arg12) (funext fun a => Fin.ext ?_)
    match a with
    | ⟨0, _⟩ => show win2_3.index t (0 : Fin 2) * 64 + 1 * (y 0).val = (y 0).val; rw [e30]; omega
    | ⟨1, _⟩ => show win2_3.index t (1 : Fin 2) * 64 + 1 * (y 1).val = (y 1).val; rw [e31]; omega
  have h4 : (fun j : Fin 64 => iblk2 V c 4 t (ix2 0 j)) = fun j : Fin 64 => V c main_v4 (ix2 0 j) := funext fun j => by
    show V c main_v4 (((cfg2.win 4).blk t).view.emb (ix2 0 j)) = _
    refine congrArg (V c main_v4) (funext fun a => Fin.ext ?_)
    match a with
    | ⟨0, _⟩ => show win2_4.index t (0 : Fin 2) * 1 + 1 * 0 = 0; rw [e40]
    | ⟨1, _⟩ => show win2_4.index t (1 : Fin 2) * 64 + 1 * j.val = j.val; rw [e41]; omega
  show Rows.outRow _ _ _ _ _ q = Rows.outRow _ _ _ _ _ (((cfg2.win 5).blk t).view.emb (ix2 p q) 1)
  rw [hE1, h0, h1, h2, h3, h4]

/-- An index of the array is in point `t`'s tile iff each coordinate is in the tile's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v17).slice (win2_5.rect t)).set ↔ _
  rw [View.set_slice_whole, Rect.mem_set_unit]
  exact Iff.rfl

/-- Row `r` lies in the tile of point `r / 5000`: the tiles cover the array. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  let t : Fin cfg2.N := ⟨(i 0).val / 5000, by show (i 0).val / 5000 < 10; omega⟩
  obtain ⟨e00, e01, e10, e11, e20, e21, e30, e31, e40, e41, e50, e51⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e50, ht]; omega
  | ⟨1, _⟩ => show win2_5.index t (1 : Fin 2) * 64 ≤ (i 1).val ∧ (i 1).val < win2_5.index t (1 : Fin 2) * 64 + 64; rw [e51]; omega

/-- THE ARRAY after the region: `G` of the arrays as the region finds them. -/
theorem final (c : Dev nD) :
    (dat2 (F := Ideal) V c).arrAt 5 cfg2.N = G (V c main_v16) (V c main_arg10) (V c main_v3) (V c main_arg12) (V c main_v4) :=
  (dat2 (F := Ideal) V c).arrAt_eq_of_cover 5 (G (V c main_v16) (V c main_arg10) (V c main_v3) (V c main_arg12) (V c main_v4)) (fun t _ => flushed_eq V c t) cover

end Cert.KernelIdeal.Out

end
-- ==== Proof.Whole.lean ====
/-
  The three dense stages as functions of WHOLE arrays: entry `(r, j)` of a stage's result is the stage's row function
  (`Rows.nodeRow`, `Rows.edgeRow`, `Rows.outRow`) of row `r` of each row-major operand. Nodes are the 50000 rows of a
  [50000, 64] array, edges the 800000 rows of an [800000, 64] array; weights are [64, 64], biases [64].
-/
import proofs.«140131_j18227841204693_2_alg».proof.Proof.Rows

noncomputable section

namespace Cert.Whole

open Idealize.ShloMosaic Idealize.ShloMosaic.ValueIdx

/-- Node-indexed arrays, edge-indexed arrays, weight matrices and bias vectors over the extended reals. -/
abbrev NodeArr := (⟨2, ![50000, 64]⟩ : Shape).Idx → EReal
abbrev EdgeArr := (⟨2, ![800000, 64]⟩ : Shape).Idx → EReal
abbrev Mat := (⟨2, ![64, 64]⟩ : Shape).Idx → EReal
abbrev Bias := (⟨1, ![64]⟩ : Shape).Idx → EReal

/-- The node projection `x · Wnᵀ + bn` of every node. -/
def nodeArr (x : NodeArr) (Wn : Mat) (bn : Bias) : NodeArr :=
  fun i => Rows.nodeRow (fun k => x (ix2 (i 0) k)) Wn (fun q => bn (ix1 q)) (i 1)

/-- Every edge's message: its gathered source row `hs` times the two-layer filter of its feature row `ef`. -/
def edgeArr (ef hs : EdgeArr) (W1 : Mat) (b1 : Bias) (W2 : Mat) (b2 : Bias) : EdgeArr :=
  fun i => Rows.edgeRow (fun k => ef (ix2 (i 0) k)) (fun k => hs (ix2 (i 0) k)) W1 (fun q => b1 (ix1 q)) W2 (fun q => b2 (ix1 q)) (i 1)

/-- Every node's output row from its aggregated messages `ag`. -/
def outArr (ag : NodeArr) (Wc : Mat) (bc : Bias) (Wp : Mat) (bp : Bias) : NodeArr :=
  fun i => Rows.outRow (fun k => ag (ix2 (i 0) k)) Wc (fun q => bc (ix1 q)) Wp (fun q => bp (ix1 q)) (i 1)

end Cert.Whole

end
-- ==== Proof.Glue.lean ====
/-
  The idealized kernel program's result as ONE function of its argument arrays. Walking back from the return: the
  output region leaves `Whole.outArr` of the scatter-added messages; the scatter-add reads the edge region's array, which
  is `Whole.edgeArr` of the edge features and of the gathered node projections; the gather reads the node region's array,
  `Whole.nodeArr` of the node features. Between the regions the host operations are read off as they stand (the index
  fix-up, the gather and the scatter-add are never opened), every other buffer a region or a host stretch reads is walked
  back to the launch memory, and a bias reshaped to a [1, 64] row holds the bias vector's entries.
-/
import proofs.«140131_j18227841204693_2_alg».proof.Proof.KRun
import proofs.«140131_j18227841204693_2_alg».proof.Proof.BlocksNode
import proofs.«140131_j18227841204693_2_alg».proof.Proof.BlocksEdge
import proofs.«140131_j18227841204693_2_alg».proof.Proof.BlocksOut
import proofs.«140131_j18227841204693_2_alg».proof.Proof.Whole
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx
open Idealize.ShloMosaic.StableHlo (after_cons after_nil)

variable (m : (ℓ : Loc nD τ sig) → Buf (Elt Ideal) ℓ) (ρ : Dev nD → PrngReg) (c : Dev nD)

/-- A bias vector reshaped to a [1, 64] row: entry `(0, j)` of the row is entry `j` of the vector. -/
theorem bias_cast (b : S64.Idx → EReal) (h : S64.ShapeCasts S1x64) (j : Fin 64) : shapeCast S1x64 b h (ix2 0 j) = b (ix1 j) :=
  (shapeCast_addUnit_apply ![64] b h (ix2 0 j)).trans (congrArg b (funext fun a => by match a with | ⟨0, _⟩ => rfl))

/-- The node region's function at a reshaped bias row is the whole-array node projection at the bias vector. -/
theorem nodeG_eq (A : S50000x64.Idx → EReal) (W : S64x64.Idx → EReal) (b : S64.Idx → EReal) (h : S64.ShapeCasts S1x64) :
    Node.G A W (shapeCast S1x64 b h) = Cert.Whole.nodeArr A W b := by
  funext i
  obtain ⟨r, j, rfl⟩ : ∃ (r : Fin 50000) (j : Fin 64), i = ix2 r j := ⟨i 0, i 1, eq_ix2 i⟩
  show Rows.nodeRow (fun k => A (ix2 r k)) W (fun q => shapeCast S1x64 b h (ix2 0 q)) j
    = Rows.nodeRow (fun k => A (ix2 r k)) W (fun q => b (ix1 q)) j
  exact congrArg (fun f => Rows.nodeRow (fun k => A (ix2 r k)) W f j) (funext fun q => bias_cast b h q)

/-- The same for the edge region's function and its two bias rows. -/
theorem edgeG_eq (A H : S800000x64.Idx → EReal) (W1 : S64x64.Idx → EReal) (b1 : S64.Idx → EReal) (W2 : S64x64.Idx → EReal)
    (b2 : S64.Idx → EReal) (h1 h2 : S64.ShapeCasts S1x64) :
    Edge.G A H W1 (shapeCast S1x64 b1 h1) W2 (shapeCast S1x64 b2 h2) = Cert.Whole.edgeArr A H W1 b1 W2 b2 := by
  funext i
  obtain ⟨r, j, rfl⟩ : ∃ (r : Fin 800000) (j : Fin 64), i = ix2 r j := ⟨i 0, i 1, eq_ix2 i⟩
  show Rows.edgeRow (fun k => A (ix2 r k)) (fun k => H (ix2 r k)) W1 (fun q => shapeCast S1x64 b1 h1 (ix2 0 q)) W2
      (fun q => shapeCast S1x64 b2 h2 (ix2 0 q)) j
    = Rows.edgeRow (fun k => A (ix2 r k)) (fun k => H (ix2 r k)) W1 (fun q => b1 (ix1 q)) W2 (fun q => b2 (ix1 q)) j
  exact congrArg₂ (fun f g => Rows.edgeRow (fun k => A (ix2 r k)) (fun k => H (ix2 r k)) W1 f W2 g j)
    (funext fun q => bias_cast b1 h1 q) (funext fun q => bias_cast b2 h2 q)

/-- The same for the output region's function and its two bias rows. -/
theorem outG_eq (A : S50000x64.Idx → EReal) (Wc : S64x64.Idx → EReal) (bc : S64.Idx → EReal) (Wp : S64x64.Idx → EReal)
    (bp : S64.Idx → EReal) (h1 h2 : S64.ShapeCasts S1x64) :
    Out.G A Wc (shapeCast S1x64 bc h1) Wp (shapeCast S1x64 bp h2) = Cert.Whole.outArr A Wc bc Wp bp := by
  funext i
  obtain ⟨r, j, rfl⟩ : ∃ (r : Fin 50000) (j : Fin 64), i = ix2 r j := ⟨i 0, i 1, eq_ix2 i⟩
  show Rows.outRow (fun k => A (ix2 r k)) Wc (fun q => shapeCast S1x64 bc h1 (ix2 0 q)) Wp (fun q => shapeCast S1x64 bp h2 (ix2 0 q)) j
    = Rows.outRow (fun k => A (ix2 r k)) Wc (fun q => bc (ix1 q)) Wp (fun q => bp (ix1 q)) j
  exact congrArg₂ (fun f g => Rows.outRow (fun k => A (ix2 r k)) Wc f Wp g j)
    (funext fun q => bias_cast bc h1 q) (funext fun q => bias_cast bp h2 q)

/-! ## Buffers no region and no host operation has written yet hold their launch contents (a reshaped bias its row) -/

theorem at1_arg0 : W1 m ρ c (Proc.devRef .tc main_arg0) = m ((c : Thread nD τ).loc main_arg0) := by
  show StableHlo.after hostOps0 (W0 m ρ c) (Proc.devRef .tc main_arg0) = _
  dsimp only [hostOps0]
  after_results <;> rfl
theorem at1_arg4 : W1 m ρ c (Proc.devRef .tc main_arg4) = m ((c : Thread nD τ).loc main_arg4) := by
  show StableHlo.after hostOps0 (W0 m ρ c) (Proc.devRef .tc main_arg4) = _
  dsimp only [hostOps0]
  after_results <;> rfl
theorem at1_v0 : (W1 m ρ c (Proc.devRef .tc main_v0) : S1x64.Idx → EReal) = shapeCast S1x64 (m ((c : Thread nD τ).loc main_arg5)) shapeCasts_S64_S1x64 := by
  show StableHlo.after hostOps0 (W0 m ρ c) (Proc.devRef .tc main_v0) = _
  dsimp only [hostOps0]
  after_results <;> rfl
theorem at1_arg2 : W1 m ρ c (Proc.devRef .tc main_arg2) = m ((c : Thread nD τ).loc main_arg2) := by
  show StableHlo.after hostOps0 (W0 m ρ c) (Proc.devRef .tc main_arg2) = _
  dsimp only [hostOps0]
  after_results <;> rfl
theorem at2_arg2 : W2 m ρ c (Proc.devRef .tc main_arg2) = m ((c : Thread nD τ).loc main_arg2) :=
  (W2_of_ne m ρ c main_arg2 (by decide)).trans (at1_arg2 m ρ c)
theorem at1_arg1 : W1 m ρ c (Proc.devRef .tc main_arg1) = m ((c : Thread nD τ).loc main_arg1) := by
  show StableHlo.after hostOps0 (W0 m ρ c) (Proc.devRef .tc main_arg1) = _
  dsimp only [hostOps0]
  after_results <;> rfl
theorem at2_arg1 : W2 m ρ c (Proc.devRef .tc main_arg1) = m ((c : Thread nD τ).loc main_arg1) :=
  (W2_of_ne m ρ c main_arg1 (by decide)).trans (at1_arg1 m ρ c)
theorem at3_arg1 : W3 m ρ c (Proc.devRef .tc main_arg1) = m ((c : Thread nD τ).loc main_arg1) := by
  refine Eq.trans ?_ (at2_arg1 m ρ c)
  show StableHlo.after hostOps1 (W2 m ρ c) (Proc.devRef .tc main_arg1) = _
  dsimp only [hostOps1]
  after_results <;> rfl
theorem at1_arg6 : W1 m ρ c (Proc.devRef .tc main_arg6) = m ((c : Thread nD τ).loc main_arg6) := by
  show StableHlo.after hostOps0 (W0 m ρ c) (Proc.devRef .tc main_arg6) = _
  dsimp only [hostOps0]
  after_results <;> rfl
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) := by
  refine Eq.trans ?_ (at2_arg6 m ρ c)
  show StableHlo.after hostOps1 (W2 m ρ c) (Proc.devRef .tc main_arg6) = _
  dsimp only [hostOps1]
  after_results <;> rfl
theorem at1_v1 : (W1 m ρ c (Proc.devRef .tc main_v1) : S1x64.Idx → EReal) = shapeCast S1x64 (m ((c : Thread nD τ).loc main_arg7)) shapeCasts_S64_S1x64 := by
  show StableHlo.after hostOps0 (W0 m ρ c) (Proc.devRef .tc main_v1) = _
  dsimp only [hostOps0]
  after_results <;> rfl
theorem at2_v1 : (W2 m ρ c (Proc.devRef .tc main_v1) : S1x64.Idx → EReal) = shapeCast S1x64 (m ((c : Thread nD τ).loc main_arg7)) shapeCasts_S64_S1x64 :=
  (W2_of_ne m ρ c main_v1 (by decide)).trans (at1_v1 m ρ c)
theorem at3_v1 : (W3 m ρ c (Proc.devRef .tc main_v1) : S1x64.Idx → EReal) = shapeCast S1x64 (m ((c : Thread nD τ).loc main_arg7)) shapeCasts_S64_S1x64 := by
  refine Eq.trans ?_ (at2_v1 m ρ c)
  show StableHlo.after hostOps1 (W2 m ρ c) (Proc.devRef .tc main_v1) = _
  dsimp only [hostOps1]
  after_results <;> rfl
theorem at1_arg8 : W1 m ρ c (Proc.devRef .tc main_arg8) = m ((c : Thread nD τ).loc main_arg8) := by
  show StableHlo.after hostOps0 (W0 m ρ c) (Proc.devRef .tc main_arg8) = _
  dsimp only [hostOps0]
  after_results <;> rfl
theorem at2_arg8 : W2 m ρ c (Proc.devRef .tc main_arg8) = m ((c : Thread nD τ).loc main_arg8) :=
  (W2_of_ne m ρ c main_arg8 (by decide)).trans (at1_arg8 m ρ c)
theorem at3_arg8 : W3 m ρ c (Proc.devRef .tc main_arg8) = m ((c : Thread nD τ).loc main_arg8) := by
  refine Eq.trans ?_ (at2_arg8 m ρ c)
  show StableHlo.after hostOps1 (W2 m ρ c) (Proc.devRef .tc main_arg8) = _
  dsimp only [hostOps1]
  after_results <;> rfl
theorem at1_v2 : (W1 m ρ c (Proc.devRef .tc main_v2) : S1x64.Idx → EReal) = shapeCast S1x64 (m ((c : Thread nD τ).loc main_arg9)) shapeCasts_S64_S1x64 := by
  show StableHlo.after hostOps0 (W0 m ρ c) (Proc.devRef .tc main_v2) = _
  dsimp only [hostOps0]
  after_results <;> rfl
theorem at2_v2 : (W2 m ρ c (Proc.devRef .tc main_v2) : S1x64.Idx → EReal) = shapeCast S1x64 (m ((c : Thread nD τ).loc main_arg9)) shapeCasts_S64_S1x64 :=
  (W2_of_ne m ρ c main_v2 (by decide)).trans (at1_v2 m ρ c)
theorem at3_v2 : (W3 m ρ c (Proc.devRef .tc main_v2) : S1x64.Idx → EReal) = shapeCast S1x64 (m ((c : Thread nD τ).loc main_arg9)) shapeCasts_S64_S1x64 := by
  refine Eq.trans ?_ (at2_v2 m ρ c)
  show StableHlo.after hostOps1 (W2 m ρ c) (Proc.devRef .tc main_v2) = _
  dsimp only [hostOps1]
  after_results <;> rfl
theorem at1_arg3 : W1 m ρ c (Proc.devRef .tc main_arg3) = m ((c : Thread nD τ).loc main_arg3) := by
  show StableHlo.after hostOps0 (W0 m ρ c) (Proc.devRef .tc main_arg3) = _
  dsimp only [hostOps0]
  after_results <;> rfl
theorem at2_arg3 : W2 m ρ c (Proc.devRef .tc main_arg3) = m ((c : Thread nD τ).loc main_arg3) :=
  (W2_of_ne m ρ c main_arg3 (by decide)).trans (at1_arg3 m ρ c)
theorem at3_arg3 : W3 m ρ c (Proc.devRef .tc main_arg3) = m ((c : Thread nD τ).loc main_arg3) := by
  refine Eq.trans ?_ (at2_arg3 m ρ c)
  show StableHlo.after hostOps1 (W2 m ρ c) (Proc.devRef .tc main_arg3) = _
  dsimp only [hostOps1]
  after_results <;> rfl
theorem at4_arg3 : W4 m ρ c (Proc.devRef .tc main_arg3) = m ((c : Thread nD τ).loc main_arg3) :=
  (W4_of_ne m ρ c main_arg3 (by decide)).trans (at3_arg3 m ρ c)
theorem at1_arg10 : W1 m ρ c (Proc.devRef .tc main_arg10) = m ((c : Thread nD τ).loc main_arg10) := by
  show StableHlo.after hostOps0 (W0 m ρ c) (Proc.devRef .tc main_arg10) = _
  dsimp only [hostOps0]
  after_results <;> rfl
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) := by
  refine Eq.trans ?_ (at2_arg10 m ρ c)
  show StableHlo.after hostOps1 (W2 m ρ c) (Proc.devRef .tc main_arg10) = _
  dsimp only [hostOps1]
  after_results <;> rfl
theorem at4_arg10 : W4 m ρ c (Proc.devRef .tc main_arg10) = m ((c : Thread nD τ).loc main_arg10) :=
  (W4_of_ne m ρ c main_arg10 (by decide)).trans (at3_arg10 m ρ c)
theorem at5_arg10 : W5 m ρ c (Proc.devRef .tc main_arg10) = m ((c : Thread nD τ).loc main_arg10) := by
  refine Eq.trans ?_ (at4_arg10 m ρ c)
  show StableHlo.after hostOps2 (W4 m ρ c) (Proc.devRef .tc main_arg10) = _
  dsimp only [hostOps2]
  after_results <;> rfl
theorem at1_v3 : (W1 m ρ c (Proc.devRef .tc main_v3) : S1x64.Idx → EReal) = shapeCast S1x64 (m ((c : Thread nD τ).loc main_arg11)) shapeCasts_S64_S1x64 := by
  show StableHlo.after hostOps0 (W0 m ρ c) (Proc.devRef .tc main_v3) = _
  dsimp only [hostOps0]
  after_results <;> rfl
theorem at2_v3 : (W2 m ρ c (Proc.devRef .tc main_v3) : S1x64.Idx → EReal) = shapeCast S1x64 (m ((c : Thread nD τ).loc main_arg11)) shapeCasts_S64_S1x64 :=
  (W2_of_ne m ρ c main_v3 (by decide)).trans (at1_v3 m ρ c)
theorem at3_v3 : (W3 m ρ c (Proc.devRef .tc main_v3) : S1x64.Idx → EReal) = shapeCast S1x64 (m ((c : Thread nD τ).loc main_arg11)) shapeCasts_S64_S1x64 := by
  refine Eq.trans ?_ (at2_v3 m ρ c)
  show StableHlo.after hostOps1 (W2 m ρ c) (Proc.devRef .tc main_v3) = _
  dsimp only [hostOps1]
  after_results <;> rfl
theorem at4_v3 : (W4 m ρ c (Proc.devRef .tc main_v3) : S1x64.Idx → EReal) = shapeCast S1x64 (m ((c : Thread nD τ).loc main_arg11)) shapeCasts_S64_S1x64 :=
  (W4_of_ne m ρ c main_v3 (by decide)).trans (at3_v3 m ρ c)
theorem at5_v3 : (W5 m ρ c (Proc.devRef .tc main_v3) : S1x64.Idx → EReal) = shapeCast S1x64 (m ((c : Thread nD τ).loc main_arg11)) shapeCasts_S64_S1x64 := by
  refine Eq.trans ?_ (at4_v3 m ρ c)
  show StableHlo.after hostOps2 (W4 m ρ c) (Proc.devRef .tc main_v3) = _
  dsimp only [hostOps2]
  after_results <;> rfl
theorem at1_arg12 : W1 m ρ c (Proc.devRef .tc main_arg12) = m ((c : Thread nD τ).loc main_arg12) := by
  show StableHlo.after hostOps0 (W0 m ρ c) (Proc.devRef .tc main_arg12) = _
  dsimp only [hostOps0]
  after_results <;> rfl
theorem at2_arg12 : W2 m ρ c (Proc.devRef .tc main_arg12) = m ((c : Thread nD τ).loc main_arg12) :=
  (W2_of_ne m ρ c main_arg12 (by decide)).trans (at1_arg12 m ρ c)
theorem at3_arg12 : W3 m ρ c (Proc.devRef .tc main_arg12) = m ((c : Thread nD τ).loc main_arg12) := by
  refine Eq.trans ?_ (at2_arg12 m ρ c)
  show StableHlo.after hostOps1 (W2 m ρ c) (Proc.devRef .tc main_arg12) = _
  dsimp only [hostOps1]
  after_results <;> rfl
theorem at4_arg12 : W4 m ρ c (Proc.devRef .tc main_arg12) = m ((c : Thread nD τ).loc main_arg12) :=
  (W4_of_ne m ρ c main_arg12 (by decide)).trans (at3_arg12 m ρ c)
theorem at5_arg12 : W5 m ρ c (Proc.devRef .tc main_arg12) = m ((c : Thread nD τ).loc main_arg12) := by
  refine Eq.trans ?_ (at4_arg12 m ρ c)
  show StableHlo.after hostOps2 (W4 m ρ c) (Proc.devRef .tc main_arg12) = _
  dsimp only [hostOps2]
  after_results <;> rfl
theorem at1_v4 : (W1 m ρ c (Proc.devRef .tc main_v4) : S1x64.Idx → EReal) = shapeCast S1x64 (m ((c : Thread nD τ).loc main_arg13)) shapeCasts_S64_S1x64 := by
  show StableHlo.after hostOps0 (W0 m ρ c) (Proc.devRef .tc main_v4) = _
  dsimp only [hostOps0]
  after_results <;> rfl
theorem at2_v4 : (W2 m ρ c (Proc.devRef .tc main_v4) : S1x64.Idx → EReal) = shapeCast S1x64 (m ((c : Thread nD τ).loc main_arg13)) shapeCasts_S64_S1x64 :=
  (W2_of_ne m ρ c main_v4 (by decide)).trans (at1_v4 m ρ c)
theorem at3_v4 : (W3 m ρ c (Proc.devRef .tc main_v4) : S1x64.Idx → EReal) = shapeCast S1x64 (m ((c : Thread nD τ).loc main_arg13)) shapeCasts_S64_S1x64 := by
  refine Eq.trans ?_ (at2_v4 m ρ c)
  show StableHlo.after hostOps1 (W2 m ρ c) (Proc.devRef .tc main_v4) = _
  dsimp only [hostOps1]
  after_results <;> rfl
theorem at4_v4 : (W4 m ρ c (Proc.devRef .tc main_v4) : S1x64.Idx → EReal) = shapeCast S1x64 (m ((c : Thread nD τ).loc main_arg13)) shapeCasts_S64_S1x64 :=
  (W4_of_ne m ρ c main_v4 (by decide)).trans (at3_v4 m ρ c)
theorem at5_v4 : (W5 m ρ c (Proc.devRef .tc main_v4) : S1x64.Idx → EReal) = shapeCast S1x64 (m ((c : Thread nD τ).loc main_arg13)) shapeCasts_S64_S1x64 := by
  refine Eq.trans ?_ (at4_v4 m ρ c)
  show StableHlo.after hostOps2 (W4 m ρ c) (Proc.devRef .tc main_v4) = _
  dsimp only [hostOps2]
  after_results <;> rfl

/-! ## The three regions' arrays and the host operations between them -/

/-- The node region's array: the node projection of the node features. -/
theorem nodes_eq : (W2 m ρ c (Proc.devRef .tc main_v5) : S50000x64.Idx → EReal)
    = Cert.Whole.nodeArr (m ((c : Thread nD τ).loc main_arg0)) (m ((c : Thread nD τ).loc main_arg4)) (m ((c : Thread nD τ).loc main_arg5)) := by
  refine (W2_arr m ρ c 3).trans ((Node.final (V1 m ρ) c).trans ?_)
  show Node.G (W1 m ρ c (Proc.devRef .tc main_arg0)) (W1 m ρ c (Proc.devRef .tc main_arg4)) (W1 m ρ c (Proc.devRef .tc main_v0)) = _
  rw [at1_arg0, at1_arg4, at1_v0]
  exact nodeG_eq _ _ _ _

/-- The gathered rows: the host gather of the node region's array at the fixed-up source indices. -/
theorem gathered_eq : (W3 m ρ c (Proc.devRef .tc main_v12) : S800000x64.Idx → EReal)
    = Host.gather gather_S50000x64_S800000x1_S800000x64_1_0_n_n_0_1_164 (Cert.Whole.nodeArr (m ((c : Thread nD τ).loc main_arg0)) (m ((c : Thread nD τ).loc main_arg4)) (m ((c : Thread nD τ).loc main_arg5)))
        (broadcastInDim S800000x1 ![0] bcast_S800000_S800000x1_0
            (select (cmpi .slt (m ((c : Thread nD τ).loc main_arg2)) (broadcastInDim S800000 ![] bcast_S_S800000 (constantI S_ 32 0#32)))
              (addi (m ((c : Thread nD τ).loc main_arg2)) (broadcastInDim S800000 ![] bcast_S_S800000 (constantI S_ 32 50000#32))) (m ((c : Thread nD τ).loc main_arg2)))) := by
  rw [← nodes_eq m ρ c, ← at2_arg2 m ρ c]
  show StableHlo.after hostOps1 (W2 m ρ c) (Proc.devRef .tc main_v12) = _
  dsimp only [hostOps1]
  after_results <;> rfl

/-- The edge region's array: every edge's message. -/
theorem edges_eq : (W4 m ρ c (Proc.devRef .tc main_v13) : S800000x64.Idx → EReal)
    = Cert.Whole.edgeArr (m ((c : Thread nD τ).loc main_arg1)) (W3 m ρ c (Proc.devRef .tc main_v12)) (m ((c : Thread nD τ).loc main_arg6)) (m ((c : Thread nD τ).loc main_arg7)) (m ((c : Thread nD τ).loc main_arg8)) (m ((c : Thread nD τ).loc main_arg9)) := by
  refine (W4_arr m ρ c 6).trans ((Edge.final (V3 m ρ) c).trans ?_)
  show Edge.G (W3 m ρ c (Proc.devRef .tc main_arg1)) (W3 m ρ c (Proc.devRef .tc main_v12)) (W3 m ρ c (Proc.devRef .tc main_arg6))
    (W3 m ρ c (Proc.devRef .tc main_v1)) (W3 m ρ c (Proc.devRef .tc main_arg8)) (W3 m ρ c (Proc.devRef .tc main_v2)) = _
  rw [at3_arg1, at3_arg6, at3_v1, at3_arg8, at3_v2]
  exact edgeG_eq _ _ _ _ _ _ _ _

/-- The aggregated messages: the host scatter-add of the edge region's array at the destination indices. -/
theorem aggregated_eq : (W5 m ρ c (Proc.devRef .tc main_v16) : S50000x64.Idx → EReal)
    = Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 (m ((c : Thread nD τ).loc main_arg3)))
        (W4 m ρ c (Proc.devRef .tc main_v13)) := by
  rw [← at4_arg3 m ρ c]
  show StableHlo.after hostOps2 (W4 m ρ c) (Proc.devRef .tc main_v16) = _
  dsimp only [hostOps2]
  after_results <;> rfl

/-- The output region's array: every node's output row. -/
theorem outs_eq : ((dat2 (F := Ideal) (V5 m ρ) c).arrAt 5 cfg2.N : S50000x64.Idx → EReal)
    = Cert.Whole.outArr (W5 m ρ c (Proc.devRef .tc main_v16)) (m ((c : Thread nD τ).loc main_arg10)) (m ((c : Thread nD τ).loc main_arg11)) (m ((c : Thread nD τ).loc main_arg12)) (m ((c : Thread nD τ).loc main_arg13)) := by
  refine (Out.final (V5 m ρ) c).trans ?_
  show Out.G (W5 m ρ c (Proc.devRef .tc main_v16)) (W5 m ρ c (Proc.devRef .tc main_arg10)) (W5 m ρ c (Proc.devRef .tc main_v3))
    (W5 m ρ c (Proc.devRef .tc main_arg12)) (W5 m ρ c (Proc.devRef .tc main_v4)) = _
  rw [at5_arg10, at5_v3, at5_arg12, at5_v4]
  exact outG_eq _ _ _ _ _ _ _

/-- THE RESULT of the idealized kernel program as a function of its argument arrays. -/
def kerOut : Buf (Elt Ideal) ((c.tc : Thread nD τ).loc main_v17) :=
  Cert.Whole.outArr
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (m ((c : Thread nD τ).loc main_arg3)))
      (Cert.Whole.edgeArr (m ((c : Thread nD τ).loc main_arg1))
        (Host.gather gather_S50000x64_S800000x1_S800000x64_1_0_n_n_0_1_164 (Cert.Whole.nodeArr (m ((c : Thread nD τ).loc main_arg0)) (m ((c : Thread nD τ).loc main_arg4)) (m ((c : Thread nD τ).loc main_arg5)))
          (broadcastInDim S800000x1 ![0] bcast_S800000_S800000x1_0
            (select (cmpi .slt (m ((c : Thread nD τ).loc main_arg2)) (broadcastInDim S800000 ![] bcast_S_S800000 (constantI S_ 32 0#32)))
              (addi (m ((c : Thread nD τ).loc main_arg2)) (broadcastInDim S800000 ![] bcast_S_S800000 (constantI S_ 32 50000#32))) (m ((c : Thread nD τ).loc main_arg2)))))
        (m ((c : Thread nD τ).loc main_arg6)) (m ((c : Thread nD τ).loc main_arg7)) (m ((c : Thread nD τ).loc main_arg8)) (m ((c : Thread nD τ).loc main_arg9))))
    (m ((c : Thread nD τ).loc main_arg10)) (m ((c : Thread nD τ).loc main_arg11)) (m ((c : Thread nD τ).loc main_arg12)) (m ((c : Thread nD τ).loc main_arg13))

theorem result_eq : (dat2 (F := Ideal) (V5 m ρ) c).arrAt 5 cfg2.N = kerOut m c := by
  refine (outs_eq m ρ c).trans ?_
  rw [aggregated_eq, edges_eq, gathered_eq]
  rfl

/-- Every weakly fair execution of the idealized kernel program terminates without a fault, its result array at
    `kerOut` of the argument arrays, the argument arrays as launched. -/
theorem run : θ_run defs (onTc (τ := τ) (main (F := Ideal))) ⟨m, fun _ => 0, ρ⟩ (fun r => ∀ c : Dev nD,
      r.2.mem ((c.tc : Thread nD τ).loc main_v17) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c _ (mem_uc main_v17 (by decide))).trans (W6_arr m ρ c 5)).trans (result_eq m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c)⟩) (Cert.KernelIdeal.Whole.run_all m ρ)

end Cert.KernelIdeal.Glue

end
-- ==== Proof.RefOps.lean ====
/-
  The reference program's @main as a list of its 90 host operations, cut into six consecutive segments, and the
  bookkeeping of a run of the list: the buffers' contents after a concatenation are those after its second half run from
  those after its first, and a segment leaves every buffer it does not write as it was.

  The segments follow the network: the node projection with the index fix-up and the gather (`segA`), the two layers of
  the edge filter (`segB1`, `segB2`), the product with the gathered rows and the scatter-add (`segB3`), and the two
  layers of the output network (`segC1`, `segC2`). Each holds at most one shifted softplus.
-/
import proofs.«140131_j18227841204693_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 90 operations, in order (a called function's operations stand in its call's place). -/
abbrev ops : List (HloOp τ sig (Elt F)) :=
  [ unary main_arg4 main_v0 ((transpose S64x64 [1, 0] · transposes_S64x64_S64x64_1_0) : (⟨S64x64, .f32⟩ : BufTy).Contents (Elt F) → (⟨S64x64, .f32⟩ : BufTy).Contents (Elt F)),
    binary main_arg0 main_v0 main_v1 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v2 (broadcastInDim S1x64 ![1] bcast_S64_S1x64_1 : (⟨S64, .f32⟩ : BufTy).Contents (Elt F) → (⟨S1x64, .f32⟩ : BufTy).Contents (Elt F)),
    unary main_v2 main_v3 (broadcastInDim S50000x64 ![0, 1] bcast_S1x64_S50000x64_0_1 : (⟨S1x64, .f32⟩ : BufTy).Contents (Elt F) → (⟨S50000x64, .f32⟩ : BufTy).Contents (Elt F)),
    binary main_v1 main_v3 main_v4 (addf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg2 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg2 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg2 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg6 main_v12 ((transpose S64x64 [1, 0] · transposes_S64x64_S64x64_1_0) : (⟨S64x64, .f32⟩ : BufTy).Contents (Elt F) → (⟨S64x64, .f32⟩ : BufTy).Contents (Elt F)),
    binary main_arg1 main_v12 main_v13 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg7 main_v14 (broadcastInDim S1x64 ![1] bcast_S64_S1x64_1 : (⟨S64, .f32⟩ : BufTy).Contents (Elt F) → (⟨S1x64, .f32⟩ : BufTy).Contents (Elt F)),
    unary main_v14 main_v15 (broadcastInDim S800000x64 ![0, 1] bcast_S1x64_S800000x64_0_1 : (⟨S1x64, .f32⟩ : BufTy).Contents (Elt F) → (⟨S800000x64, .f32⟩ : BufTy).Contents (Elt F)),
    binary main_v13 main_v15 main_v16 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v16) (TRef.of (T := ⟨S800000x64, .f32⟩) main_call0_v0) (TRef.of (T := ⟨S800000x64, .f32⟩) main_call0_v1) maximumf,
    TRef.unary (TRef.of (T := ⟨S_, .f32⟩) main_call0_cst) (TRef.of (T := ⟨S800000x64, .f32⟩) main_call0_v2) (broadcastInDim S800000x64 ![] bcast_S_S800000x64),
    TRef.binary (TRef.of (T := ⟨S800000x64, .f32⟩) main_v16) (TRef.of (T := ⟨S800000x64, .f32⟩) main_call0_v2) (TRef.of (T := ⟨S800000x64, .f32⟩) main_call0_v3) subf,
    TRef.binary (TRef.of (T := ⟨S800000x64, .f32⟩) main_call0_v3) (TRef.of (T := ⟨S800000x64, .f32⟩) main_call0_v3) (TRef.of (T := ⟨S800000x64, .i1⟩) main_call0_v4) (cmpf .une),
    TRef.unary (TRef.of (T := ⟨S_, .f32⟩) main_call0_cst) (TRef.of (T := ⟨S800000x64, .f32⟩) main_call0_v5) (broadcastInDim S800000x64 ![] bcast_S_S800000x64),
    TRef.binary (TRef.of (T := ⟨S800000x64, .f32⟩) main_v16) (TRef.of (T := ⟨S800000x64, .f32⟩) main_call0_v5) (TRef.of (T := ⟨S800000x64, .f32⟩) main_call0_v6) addf,
    TRef.unary (TRef.of (T := ⟨S800000x64, .f32⟩) main_call0_v3) (TRef.of (T := ⟨S800000x64, .f32⟩) main_call0_v7) Host.absf,
    TRef.unary (TRef.of (T := ⟨S800000x64, .f32⟩) main_call0_v7) (TRef.of (T := ⟨S800000x64, .f32⟩) main_call0_v8) Host.negf,
    TRef.unary (TRef.of (T := ⟨S800000x64, .f32⟩) main_call0_v8) (TRef.of (T := ⟨S800000x64, .f32⟩) main_call0_v9) Host.exp,
    TRef.unary (TRef.of (T := ⟨S800000x64, .f32⟩) main_call0_v9) (TRef.of (T := ⟨S800000x64, .f32⟩) main_call0_v10) Host.log1p,
    TRef.binary (TRef.of (T := ⟨S800000x64, .f32⟩) main_call0_v1) (TRef.of (T := ⟨S800000x64, .f32⟩) main_call0_v10) (TRef.of (T := ⟨S800000x64, .f32⟩) main_call0_v11) addf,
    TRef.ternary (TRef.of (T := ⟨S800000x64, .i1⟩) main_call0_v4) (TRef.of (T := ⟨S800000x64, .f32⟩) main_call0_v6) (TRef.of (T := ⟨S800000x64, .f32⟩) main_call0_v11) (TRef.of (T := ⟨S800000x64, .f32⟩) main_v17) select,
    nullary main_cst (constant S_ .f32 0x3F317218#32),
    unary main_cst main_v18 (broadcastInDim S800000x64 ![] bcast_S_S800000x64 : (⟨S_, .f32⟩ : BufTy).Contents (Elt F) → (⟨S800000x64, .f32⟩ : BufTy).Contents (Elt F)),
    binary main_v17 main_v18 main_v19 (subf : (⟨S800000x64, .f32⟩ : BufTy).Contents (Elt F) → (⟨S800000x64, .f32⟩ : BufTy).Contents (Elt F) → (⟨S800000x64, .f32⟩ : BufTy).Contents (Elt F)),
    unary main_arg8 main_v20 ((transpose S64x64 [1, 0] · transposes_S64x64_S64x64_1_0) : (⟨S64x64, .f32⟩ : BufTy).Contents (Elt F) → (⟨S64x64, .f32⟩ : BufTy).Contents (Elt F)),
    binary main_v19 main_v20 main_v21 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v22 (broadcastInDim S1x64 ![1] bcast_S64_S1x64_1 : (⟨S64, .f32⟩ : BufTy).Contents (Elt F) → (⟨S1x64, .f32⟩ : BufTy).Contents (Elt F)),
    unary main_v22 main_v23 (broadcastInDim S800000x64 ![0, 1] bcast_S1x64_S800000x64_0_1 : (⟨S1x64, .f32⟩ : BufTy).Contents (Elt F) → (⟨S800000x64, .f32⟩ : BufTy).Contents (Elt F)),
    binary main_v21 main_v23 main_v24 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v24) (TRef.of (T := ⟨S800000x64, .f32⟩) main_call1_v0) (TRef.of (T := ⟨S800000x64, .f32⟩) main_call1_v1) maximumf,
    TRef.unary (TRef.of (T := ⟨S_, .f32⟩) main_call1_cst) (TRef.of (T := ⟨S800000x64, .f32⟩) main_call1_v2) (broadcastInDim S800000x64 ![] bcast_S_S800000x64),
    TRef.binary (TRef.of (T := ⟨S800000x64, .f32⟩) main_v24) (TRef.of (T := ⟨S800000x64, .f32⟩) main_call1_v2) (TRef.of (T := ⟨S800000x64, .f32⟩) main_call1_v3) subf,
    TRef.binary (TRef.of (T := ⟨S800000x64, .f32⟩) main_call1_v3) (TRef.of (T := ⟨S800000x64, .f32⟩) main_call1_v3) (TRef.of (T := ⟨S800000x64, .i1⟩) main_call1_v4) (cmpf .une),
    TRef.unary (TRef.of (T := ⟨S_, .f32⟩) main_call1_cst) (TRef.of (T := ⟨S800000x64, .f32⟩) main_call1_v5) (broadcastInDim S800000x64 ![] bcast_S_S800000x64),
    TRef.binary (TRef.of (T := ⟨S800000x64, .f32⟩) main_v24) (TRef.of (T := ⟨S800000x64, .f32⟩) main_call1_v5) (TRef.of (T := ⟨S800000x64, .f32⟩) main_call1_v6) addf,
    TRef.unary (TRef.of (T := ⟨S800000x64, .f32⟩) main_call1_v3) (TRef.of (T := ⟨S800000x64, .f32⟩) main_call1_v7) Host.absf,
    TRef.unary (TRef.of (T := ⟨S800000x64, .f32⟩) main_call1_v7) (TRef.of (T := ⟨S800000x64, .f32⟩) main_call1_v8) Host.negf,
    TRef.unary (TRef.of (T := ⟨S800000x64, .f32⟩) main_call1_v8) (TRef.of (T := ⟨S800000x64, .f32⟩) main_call1_v9) Host.exp,
    TRef.unary (TRef.of (T := ⟨S800000x64, .f32⟩) main_call1_v9) (TRef.of (T := ⟨S800000x64, .f32⟩) main_call1_v10) Host.log1p,
    TRef.binary (TRef.of (T := ⟨S800000x64, .f32⟩) main_call1_v1) (TRef.of (T := ⟨S800000x64, .f32⟩) main_call1_v10) (TRef.of (T := ⟨S800000x64, .f32⟩) main_call1_v11) addf,
    TRef.ternary (TRef.of (T := ⟨S800000x64, .i1⟩) main_call1_v4) (TRef.of (T := ⟨S800000x64, .f32⟩) main_call1_v6) (TRef.of (T := ⟨S800000x64, .f32⟩) main_call1_v11) (TRef.of (T := ⟨S800000x64, .f32⟩) main_v25) select,
    nullary main_cst_1 (constant S_ .f32 0x3F317218#32),
    unary main_cst_1 main_v26 (broadcastInDim S800000x64 ![] bcast_S_S800000x64 : (⟨S_, .f32⟩ : BufTy).Contents (Elt F) → (⟨S800000x64, .f32⟩ : BufTy).Contents (Elt F)),
    binary main_v25 main_v26 main_v27 (subf : (⟨S800000x64, .f32⟩ : BufTy).Contents (Elt F) → (⟨S800000x64, .f32⟩ : BufTy).Contents (Elt F) → (⟨S800000x64, .f32⟩ : BufTy).Contents (Elt F)),
    binary main_v11 main_v27 main_v28 (mulf : (⟨S800000x64, .f32⟩ : BufTy).Contents (Elt F) → (⟨S800000x64, .f32⟩ : BufTy).Contents (Elt F) → (⟨S800000x64, .f32⟩ : BufTy).Contents (Elt F)),
    nullary main_cst_2 (constant S_ .f32 0x00000000#32),
    unary main_cst_2 main_v29 (broadcastInDim S50000x64 ![] bcast_S_S50000x64 : (⟨S_, .f32⟩ : BufTy).Contents (Elt F) → (⟨S50000x64, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg10 main_v32 ((transpose S64x64 [1, 0] · transposes_S64x64_S64x64_1_0) : (⟨S64x64, .f32⟩ : BufTy).Contents (Elt F) → (⟨S64x64, .f32⟩ : BufTy).Contents (Elt F)),
    binary main_v31 main_v32 main_v33 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v34 (broadcastInDim S1x64 ![1] bcast_S64_S1x64_1 : (⟨S64, .f32⟩ : BufTy).Contents (Elt F) → (⟨S1x64, .f32⟩ : BufTy).Contents (Elt F)),
    unary main_v34 main_v35 (broadcastInDim S50000x64 ![0, 1] bcast_S1x64_S50000x64_0_1 : (⟨S1x64, .f32⟩ : BufTy).Contents (Elt F) → (⟨S50000x64, .f32⟩ : BufTy).Contents (Elt F)),
    binary main_v33 main_v35 main_v36 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v36) (TRef.of (T := ⟨S50000x64, .f32⟩) main_call2_v0) (TRef.of (T := ⟨S50000x64, .f32⟩) main_call2_v1) maximumf,
    TRef.unary (TRef.of (T := ⟨S_, .f32⟩) main_call2_cst) (TRef.of (T := ⟨S50000x64, .f32⟩) main_call2_v2) (broadcastInDim S50000x64 ![] bcast_S_S50000x64),
    TRef.binary (TRef.of (T := ⟨S50000x64, .f32⟩) main_v36) (TRef.of (T := ⟨S50000x64, .f32⟩) main_call2_v2) (TRef.of (T := ⟨S50000x64, .f32⟩) main_call2_v3) subf,
    TRef.binary (TRef.of (T := ⟨S50000x64, .f32⟩) main_call2_v3) (TRef.of (T := ⟨S50000x64, .f32⟩) main_call2_v3) (TRef.of (T := ⟨S50000x64, .i1⟩) main_call2_v4) (cmpf .une),
    TRef.unary (TRef.of (T := ⟨S_, .f32⟩) main_call2_cst) (TRef.of (T := ⟨S50000x64, .f32⟩) main_call2_v5) (broadcastInDim S50000x64 ![] bcast_S_S50000x64),
    TRef.binary (TRef.of (T := ⟨S50000x64, .f32⟩) main_v36) (TRef.of (T := ⟨S50000x64, .f32⟩) main_call2_v5) (TRef.of (T := ⟨S50000x64, .f32⟩) main_call2_v6) addf,
    TRef.unary (TRef.of (T := ⟨S50000x64, .f32⟩) main_call2_v3) (TRef.of (T := ⟨S50000x64, .f32⟩) main_call2_v7) Host.absf,
    TRef.unary (TRef.of (T := ⟨S50000x64, .f32⟩) main_call2_v7) (TRef.of (T := ⟨S50000x64, .f32⟩) main_call2_v8) Host.negf,
    TRef.unary (TRef.of (T := ⟨S50000x64, .f32⟩) main_call2_v8) (TRef.of (T := ⟨S50000x64, .f32⟩) main_call2_v9) Host.exp,
    TRef.unary (TRef.of (T := ⟨S50000x64, .f32⟩) main_call2_v9) (TRef.of (T := ⟨S50000x64, .f32⟩) main_call2_v10) Host.log1p,
    TRef.binary (TRef.of (T := ⟨S50000x64, .f32⟩) main_call2_v1) (TRef.of (T := ⟨S50000x64, .f32⟩) main_call2_v10) (TRef.of (T := ⟨S50000x64, .f32⟩) main_call2_v11) addf,
    TRef.ternary (TRef.of (T := ⟨S50000x64, .i1⟩) main_call2_v4) (TRef.of (T := ⟨S50000x64, .f32⟩) main_call2_v6) (TRef.of (T := ⟨S50000x64, .f32⟩) main_call2_v11) (TRef.of (T := ⟨S50000x64, .f32⟩) main_v37) select,
    nullary main_cst_3 (constant S_ .f32 0x3F317218#32),
    unary main_cst_3 main_v38 (broadcastInDim S50000x64 ![] bcast_S_S50000x64 : (⟨S_, .f32⟩ : BufTy).Contents (Elt F) → (⟨S50000x64, .f32⟩ : BufTy).Contents (Elt F)),
    binary main_v37 main_v38 main_v39 (subf : (⟨S50000x64, .f32⟩ : BufTy).Contents (Elt F) → (⟨S50000x64, .f32⟩ : BufTy).Contents (Elt F) → (⟨S50000x64, .f32⟩ : BufTy).Contents (Elt F)),
    unary main_arg12 main_v40 ((transpose S64x64 [1, 0] · transposes_S64x64_S64x64_1_0) : (⟨S64x64, .f32⟩ : BufTy).Contents (Elt F) → (⟨S64x64, .f32⟩ : BufTy).Contents (Elt F)),
    binary main_v39 main_v40 main_v41 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)) ]

/-- Operations 0–13: the node projection `h`, the index fix-up, the gather of `h`'s rows. -/
abbrev segA : List (HloOp τ sig (Elt F)) :=
  [ unary main_arg4 main_v0 ((transpose S64x64 [1, 0] · transposes_S64x64_S64x64_1_0) : (⟨S64x64, .f32⟩ : BufTy).Contents (Elt F) → (⟨S64x64, .f32⟩ : BufTy).Contents (Elt F)),
    binary main_arg0 main_v0 main_v1 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v2 (broadcastInDim S1x64 ![1] bcast_S64_S1x64_1 : (⟨S64, .f32⟩ : BufTy).Contents (Elt F) → (⟨S1x64, .f32⟩ : BufTy).Contents (Elt F)),
    unary main_v2 main_v3 (broadcastInDim S50000x64 ![0, 1] bcast_S1x64_S50000x64_0_1 : (⟨S1x64, .f32⟩ : BufTy).Contents (Elt F) → (⟨S50000x64, .f32⟩ : BufTy).Contents (Elt F)),
    binary main_v1 main_v3 main_v4 (addf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg2 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg2 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg2 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 14–35: the first layer of the edge filter, its shifted softplus. -/
abbrev segB1 : List (HloOp τ sig (Elt F)) :=
  [ unary main_arg6 main_v12 ((transpose S64x64 [1, 0] · transposes_S64x64_S64x64_1_0) : (⟨S64x64, .f32⟩ : BufTy).Contents (Elt F) → (⟨S64x64, .f32⟩ : BufTy).Contents (Elt F)),
    binary main_arg1 main_v12 main_v13 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg7 main_v14 (broadcastInDim S1x64 ![1] bcast_S64_S1x64_1 : (⟨S64, .f32⟩ : BufTy).Contents (Elt F) → (⟨S1x64, .f32⟩ : BufTy).Contents (Elt F)),
    unary main_v14 main_v15 (broadcastInDim S800000x64 ![0, 1] bcast_S1x64_S800000x64_0_1 : (⟨S1x64, .f32⟩ : BufTy).Contents (Elt F) → (⟨S800000x64, .f32⟩ : BufTy).Contents (Elt F)),
    binary main_v13 main_v15 main_v16 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v16) (TRef.of (T := ⟨S800000x64, .f32⟩) main_call0_v0) (TRef.of (T := ⟨S800000x64, .f32⟩) main_call0_v1) maximumf,
    TRef.unary (TRef.of (T := ⟨S_, .f32⟩) main_call0_cst) (TRef.of (T := ⟨S800000x64, .f32⟩) main_call0_v2) (broadcastInDim S800000x64 ![] bcast_S_S800000x64),
    TRef.binary (TRef.of (T := ⟨S800000x64, .f32⟩) main_v16) (TRef.of (T := ⟨S800000x64, .f32⟩) main_call0_v2) (TRef.of (T := ⟨S800000x64, .f32⟩) main_call0_v3) subf,
    TRef.binary (TRef.of (T := ⟨S800000x64, .f32⟩) main_call0_v3) (TRef.of (T := ⟨S800000x64, .f32⟩) main_call0_v3) (TRef.of (T := ⟨S800000x64, .i1⟩) main_call0_v4) (cmpf .une),
    TRef.unary (TRef.of (T := ⟨S_, .f32⟩) main_call0_cst) (TRef.of (T := ⟨S800000x64, .f32⟩) main_call0_v5) (broadcastInDim S800000x64 ![] bcast_S_S800000x64),
    TRef.binary (TRef.of (T := ⟨S800000x64, .f32⟩) main_v16) (TRef.of (T := ⟨S800000x64, .f32⟩) main_call0_v5) (TRef.of (T := ⟨S800000x64, .f32⟩) main_call0_v6) addf,
    TRef.unary (TRef.of (T := ⟨S800000x64, .f32⟩) main_call0_v3) (TRef.of (T := ⟨S800000x64, .f32⟩) main_call0_v7) Host.absf,
    TRef.unary (TRef.of (T := ⟨S800000x64, .f32⟩) main_call0_v7) (TRef.of (T := ⟨S800000x64, .f32⟩) main_call0_v8) Host.negf,
    TRef.unary (TRef.of (T := ⟨S800000x64, .f32⟩) main_call0_v8) (TRef.of (T := ⟨S800000x64, .f32⟩) main_call0_v9) Host.exp,
    TRef.unary (TRef.of (T := ⟨S800000x64, .f32⟩) main_call0_v9) (TRef.of (T := ⟨S800000x64, .f32⟩) main_call0_v10) Host.log1p,
    TRef.binary (TRef.of (T := ⟨S800000x64, .f32⟩) main_call0_v1) (TRef.of (T := ⟨S800000x64, .f32⟩) main_call0_v10) (TRef.of (T := ⟨S800000x64, .f32⟩) main_call0_v11) addf,
    TRef.ternary (TRef.of (T := ⟨S800000x64, .i1⟩) main_call0_v4) (TRef.of (T := ⟨S800000x64, .f32⟩) main_call0_v6) (TRef.of (T := ⟨S800000x64, .f32⟩) main_call0_v11) (TRef.of (T := ⟨S800000x64, .f32⟩) main_v17) select,
    nullary main_cst (constant S_ .f32 0x3F317218#32),
    unary main_cst main_v18 (broadcastInDim S800000x64 ![] bcast_S_S800000x64 : (⟨S_, .f32⟩ : BufTy).Contents (Elt F) → (⟨S800000x64, .f32⟩ : BufTy).Contents (Elt F)),
    binary main_v17 main_v18 main_v19 (subf : (⟨S800000x64, .f32⟩ : BufTy).Contents (Elt F) → (⟨S800000x64, .f32⟩ : BufTy).Contents (Elt F) → (⟨S800000x64, .f32⟩ : BufTy).Contents (Elt F)) ]

/-- Operations 36–57: the second layer of the edge filter, its shifted softplus. -/
abbrev segB2 : List (HloOp τ sig (Elt F)) :=
  [ unary main_arg8 main_v20 ((transpose S64x64 [1, 0] · transposes_S64x64_S64x64_1_0) : (⟨S64x64, .f32⟩ : BufTy).Contents (Elt F) → (⟨S64x64, .f32⟩ : BufTy).Contents (Elt F)),
    binary main_v19 main_v20 main_v21 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v22 (broadcastInDim S1x64 ![1] bcast_S64_S1x64_1 : (⟨S64, .f32⟩ : BufTy).Contents (Elt F) → (⟨S1x64, .f32⟩ : BufTy).Contents (Elt F)),
    unary main_v22 main_v23 (broadcastInDim S800000x64 ![0, 1] bcast_S1x64_S800000x64_0_1 : (⟨S1x64, .f32⟩ : BufTy).Contents (Elt F) → (⟨S800000x64, .f32⟩ : BufTy).Contents (Elt F)),
    binary main_v21 main_v23 main_v24 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v24) (TRef.of (T := ⟨S800000x64, .f32⟩) main_call1_v0) (TRef.of (T := ⟨S800000x64, .f32⟩) main_call1_v1) maximumf,
    TRef.unary (TRef.of (T := ⟨S_, .f32⟩) main_call1_cst) (TRef.of (T := ⟨S800000x64, .f32⟩) main_call1_v2) (broadcastInDim S800000x64 ![] bcast_S_S800000x64),
    TRef.binary (TRef.of (T := ⟨S800000x64, .f32⟩) main_v24) (TRef.of (T := ⟨S800000x64, .f32⟩) main_call1_v2) (TRef.of (T := ⟨S800000x64, .f32⟩) main_call1_v3) subf,
    TRef.binary (TRef.of (T := ⟨S800000x64, .f32⟩) main_call1_v3) (TRef.of (T := ⟨S800000x64, .f32⟩) main_call1_v3) (TRef.of (T := ⟨S800000x64, .i1⟩) main_call1_v4) (cmpf .une),
    TRef.unary (TRef.of (T := ⟨S_, .f32⟩) main_call1_cst) (TRef.of (T := ⟨S800000x64, .f32⟩) main_call1_v5) (broadcastInDim S800000x64 ![] bcast_S_S800000x64),
    TRef.binary (TRef.of (T := ⟨S800000x64, .f32⟩) main_v24) (TRef.of (T := ⟨S800000x64, .f32⟩) main_call1_v5) (TRef.of (T := ⟨S800000x64, .f32⟩) main_call1_v6) addf,
    TRef.unary (TRef.of (T := ⟨S800000x64, .f32⟩) main_call1_v3) (TRef.of (T := ⟨S800000x64, .f32⟩) main_call1_v7) Host.absf,
    TRef.unary (TRef.of (T := ⟨S800000x64, .f32⟩) main_call1_v7) (TRef.of (T := ⟨S800000x64, .f32⟩) main_call1_v8) Host.negf,
    TRef.unary (TRef.of (T := ⟨S800000x64, .f32⟩) main_call1_v8) (TRef.of (T := ⟨S800000x64, .f32⟩) main_call1_v9) Host.exp,
    TRef.unary (TRef.of (T := ⟨S800000x64, .f32⟩) main_call1_v9) (TRef.of (T := ⟨S800000x64, .f32⟩) main_call1_v10) Host.log1p,
    TRef.binary (TRef.of (T := ⟨S800000x64, .f32⟩) main_call1_v1) (TRef.of (T := ⟨S800000x64, .f32⟩) main_call1_v10) (TRef.of (T := ⟨S800000x64, .f32⟩) main_call1_v11) addf,
    TRef.ternary (TRef.of (T := ⟨S800000x64, .i1⟩) main_call1_v4) (TRef.of (T := ⟨S800000x64, .f32⟩) main_call1_v6) (TRef.of (T := ⟨S800000x64, .f32⟩) main_call1_v11) (TRef.of (T := ⟨S800000x64, .f32⟩) main_v25) select,
    nullary main_cst_1 (constant S_ .f32 0x3F317218#32),
    unary main_cst_1 main_v26 (broadcastInDim S800000x64 ![] bcast_S_S800000x64 : (⟨S_, .f32⟩ : BufTy).Contents (Elt F) → (⟨S800000x64, .f32⟩ : BufTy).Contents (Elt F)),
    binary main_v25 main_v26 main_v27 (subf : (⟨S800000x64, .f32⟩ : BufTy).Contents (Elt F) → (⟨S800000x64, .f32⟩ : BufTy).Contents (Elt F) → (⟨S800000x64, .f32⟩ : BufTy).Contents (Elt F)) ]

/-- Operations 58–62: the product with the gathered rows, the scatter-add into a zero array. -/
abbrev segB3 : List (HloOp τ sig (Elt F)) :=
  [ binary main_v11 main_v27 main_v28 (mulf : (⟨S800000x64, .f32⟩ : BufTy).Contents (Elt F) → (⟨S800000x64, .f32⟩ : BufTy).Contents (Elt F) → (⟨S800000x64, .f32⟩ : BufTy).Contents (Elt F)),
    nullary main_cst_2 (constant S_ .f32 0x00000000#32),
    unary main_cst_2 main_v29 (broadcastInDim S50000x64 ![] bcast_S_S50000x64 : (⟨S_, .f32⟩ : BufTy).Contents (Elt F) → (⟨S50000x64, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 63–84: the first layer of the output network, its shifted softplus. -/
abbrev segC1 : List (HloOp τ sig (Elt F)) :=
  [ unary main_arg10 main_v32 ((transpose S64x64 [1, 0] · transposes_S64x64_S64x64_1_0) : (⟨S64x64, .f32⟩ : BufTy).Contents (Elt F) → (⟨S64x64, .f32⟩ : BufTy).Contents (Elt F)),
    binary main_v31 main_v32 main_v33 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v34 (broadcastInDim S1x64 ![1] bcast_S64_S1x64_1 : (⟨S64, .f32⟩ : BufTy).Contents (Elt F) → (⟨S1x64, .f32⟩ : BufTy).Contents (Elt F)),
    unary main_v34 main_v35 (broadcastInDim S50000x64 ![0, 1] bcast_S1x64_S50000x64_0_1 : (⟨S1x64, .f32⟩ : BufTy).Contents (Elt F) → (⟨S50000x64, .f32⟩ : BufTy).Contents (Elt F)),
    binary main_v33 main_v35 main_v36 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v36) (TRef.of (T := ⟨S50000x64, .f32⟩) main_call2_v0) (TRef.of (T := ⟨S50000x64, .f32⟩) main_call2_v1) maximumf,
    TRef.unary (TRef.of (T := ⟨S_, .f32⟩) main_call2_cst) (TRef.of (T := ⟨S50000x64, .f32⟩) main_call2_v2) (broadcastInDim S50000x64 ![] bcast_S_S50000x64),
    TRef.binary (TRef.of (T := ⟨S50000x64, .f32⟩) main_v36) (TRef.of (T := ⟨S50000x64, .f32⟩) main_call2_v2) (TRef.of (T := ⟨S50000x64, .f32⟩) main_call2_v3) subf,
    TRef.binary (TRef.of (T := ⟨S50000x64, .f32⟩) main_call2_v3) (TRef.of (T := ⟨S50000x64, .f32⟩) main_call2_v3) (TRef.of (T := ⟨S50000x64, .i1⟩) main_call2_v4) (cmpf .une),
    TRef.unary (TRef.of (T := ⟨S_, .f32⟩) main_call2_cst) (TRef.of (T := ⟨S50000x64, .f32⟩) main_call2_v5) (broadcastInDim S50000x64 ![] bcast_S_S50000x64),
    TRef.binary (TRef.of (T := ⟨S50000x64, .f32⟩) main_v36) (TRef.of (T := ⟨S50000x64, .f32⟩) main_call2_v5) (TRef.of (T := ⟨S50000x64, .f32⟩) main_call2_v6) addf,
    TRef.unary (TRef.of (T := ⟨S50000x64, .f32⟩) main_call2_v3) (TRef.of (T := ⟨S50000x64, .f32⟩) main_call2_v7) Host.absf,
    TRef.unary (TRef.of (T := ⟨S50000x64, .f32⟩) main_call2_v7) (TRef.of (T := ⟨S50000x64, .f32⟩) main_call2_v8) Host.negf,
    TRef.unary (TRef.of (T := ⟨S50000x64, .f32⟩) main_call2_v8) (TRef.of (T := ⟨S50000x64, .f32⟩) main_call2_v9) Host.exp,
    TRef.unary (TRef.of (T := ⟨S50000x64, .f32⟩) main_call2_v9) (TRef.of (T := ⟨S50000x64, .f32⟩) main_call2_v10) Host.log1p,
    TRef.binary (TRef.of (T := ⟨S50000x64, .f32⟩) main_call2_v1) (TRef.of (T := ⟨S50000x64, .f32⟩) main_call2_v10) (TRef.of (T := ⟨S50000x64, .f32⟩) main_call2_v11) addf,
    TRef.ternary (TRef.of (T := ⟨S50000x64, .i1⟩) main_call2_v4) (TRef.of (T := ⟨S50000x64, .f32⟩) main_call2_v6) (TRef.of (T := ⟨S50000x64, .f32⟩) main_call2_v11) (TRef.of (T := ⟨S50000x64, .f32⟩) main_v37) select,
    nullary main_cst_3 (constant S_ .f32 0x3F317218#32),
    unary main_cst_3 main_v38 (broadcastInDim S50000x64 ![] bcast_S_S50000x64 : (⟨S_, .f32⟩ : BufTy).Contents (Elt F) → (⟨S50000x64, .f32⟩ : BufTy).Contents (Elt F)),
    binary main_v37 main_v38 main_v39 (subf : (⟨S50000x64, .f32⟩ : BufTy).Contents (Elt F) → (⟨S50000x64, .f32⟩ : BufTy).Contents (Elt F) → (⟨S50000x64, .f32⟩ : BufTy).Contents (Elt F)) ]

/-- Operations 85–89: the last linear layer. -/
abbrev segC2 : List (HloOp τ sig (Elt F)) :=
  [ unary main_arg12 main_v40 ((transpose S64x64 [1, 0] · transposes_S64x64_S64x64_1_0) : (⟨S64x64, .f32⟩ : BufTy).Contents (Elt F) → (⟨S64x64, .f32⟩ : BufTy).Contents (Elt F)),
    binary main_v39 main_v40 main_v41 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg13 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The list is its six segments, in order. -/
theorem ops_eq : (ops : List (HloOp τ sig (Elt F))) = segA ++ (segB1 ++ (segB2 ++ (segB3 ++ (segC1 ++ segC2)))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., unary_bufs_sub .., unary_bufs_sub .., binary_bufs_sub ..⟩

/-- The buffers after two lines run one after the other: the second line's, from the first line's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## What each segment writes, and that it keeps the rest -/

/-- The buffers segment `segA` writes. -/
abbrev segA_W : List (Ref sig .tc) := [main_v0, main_v1, main_v2, main_v3, main_v4, main_c, main_v5, main_v6, main_c_0, main_v7, main_v8, main_v9, main_v10, main_v11]
set_option maxRecDepth 8192 in
theorem segA_writes : (segA : List (HloOp τ sig (Elt F))).Forall fun op => op.writes ⊆ (segA_W.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `segA` does not write keeps its contents through it. -/
theorem segA_keep (V : Valuation τ sig (Elt F)) (r : Ref sig .tc) (h : r ∉ segA_W) :
    after segA V (Proc.devRef .tc r) = V (Proc.devRef .tc r) :=
  after_of_writes_sub segA V segA_writes h

/-- The buffers segment `segB1` writes. -/
abbrev segB1_W : List (Ref sig .tc) := [main_v12, main_v13, main_v14, main_v15, main_v16, main_call0_cst, main_call0_v0, main_call0_v1, main_call0_v2, main_call0_v3, main_call0_v4, main_call0_v5, main_call0_v6, main_call0_v7, main_call0_v8, main_call0_v9, main_call0_v10, main_call0_v11, main_v17, main_cst, main_v18, main_v19]
set_option maxRecDepth 8192 in
theorem segB1_writes : (segB1 : List (HloOp τ sig (Elt F))).Forall fun op => op.writes ⊆ (segB1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `segB1` does not write keeps its contents through it. -/
theorem segB1_keep (V : Valuation τ sig (Elt F)) (r : Ref sig .tc) (h : r ∉ segB1_W) :
    after segB1 V (Proc.devRef .tc r) = V (Proc.devRef .tc r) :=
  after_of_writes_sub segB1 V segB1_writes h

/-- The buffers segment `segB2` writes. -/
abbrev segB2_W : List (Ref sig .tc) := [main_v20, main_v21, main_v22, main_v23, main_v24, main_call1_cst, main_call1_v0, main_call1_v1, main_call1_v2, main_call1_v3, main_call1_v4, main_call1_v5, main_call1_v6, main_call1_v7, main_call1_v8, main_call1_v9, main_call1_v10, main_call1_v11, main_v25, main_cst_1, main_v26, main_v27]
set_option maxRecDepth 8192 in
theorem segB2_writes : (segB2 : List (HloOp τ sig (Elt F))).Forall fun op => op.writes ⊆ (segB2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `segB2` does not write keeps its contents through it. -/
theorem segB2_keep (V : Valuation τ sig (Elt F)) (r : Ref sig .tc) (h : r ∉ segB2_W) :
    after segB2 V (Proc.devRef .tc r) = V (Proc.devRef .tc r) :=
  after_of_writes_sub segB2 V segB2_writes h

/-- The buffers segment `segB3` writes. -/
abbrev segB3_W : List (Ref sig .tc) := [main_v28, main_cst_2, main_v29, main_v30, main_v31]
set_option maxRecDepth 8192 in
theorem segB3_writes : (segB3 : List (HloOp τ sig (Elt F))).Forall fun op => op.writes ⊆ (segB3_W.map (Proc.devRef (τ := τ) .tc)).toFinset := by
  simp only [List.Forall]
  refine ⟨?_, ?_, ?_, ?_, ?_⟩ <;>
    (simp only [nullary_writes, unary_writes, binary_writes, ternary_writes, Finset.singleton_subset_iff, List.mem_toFinset]; exact List.mem_map_of_mem (by decide))
/-- A buffer `segB3` does not write keeps its contents through it. -/
theorem segB3_keep (V : Valuation τ sig (Elt F)) (r : Ref sig .tc) (h : r ∉ segB3_W) :
    after segB3 V (Proc.devRef .tc r) = V (Proc.devRef .tc r) :=
  after_of_writes_sub segB3 V segB3_writes h

/-- The buffers segment `segC1` writes. -/
abbrev segC1_W : List (Ref sig .tc) := [main_v32, main_v33, main_v34, main_v35, main_v36, main_call2_cst, main_call2_v0, main_call2_v1, main_call2_v2, main_call2_v3, main_call2_v4, main_call2_v5, main_call2_v6, main_call2_v7, main_call2_v8, main_call2_v9, main_call2_v10, main_call2_v11, main_v37, main_cst_3, main_v38, main_v39]
set_option maxRecDepth 8192 in
theorem segC1_writes : (segC1 : List (HloOp τ sig (Elt F))).Forall fun op => op.writes ⊆ (segC1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `segC1` does not write keeps its contents through it. -/
theorem segC1_keep (V : Valuation τ sig (Elt F)) (r : Ref sig .tc) (h : r ∉ segC1_W) :
    after segC1 V (Proc.devRef .tc r) = V (Proc.devRef .tc r) :=
  after_of_writes_sub segC1 V segC1_writes h

/-- The buffers segment `segC2` writes. -/
abbrev segC2_W : List (Ref sig .tc) := [main_v40, main_v41, main_v42, main_v43, main_v44]
set_option maxRecDepth 8192 in
theorem segC2_writes : (segC2 : List (HloOp τ sig (Elt F))).Forall fun op => op.writes ⊆ (segC2_W.map (Proc.devRef (τ := τ) .tc)).toFinset := by
  simp only [List.Forall]
  refine ⟨?_, ?_, ?_, ?_, ?_⟩ <;>
    (simp only [nullary_writes, unary_writes, binary_writes, ternary_writes, Finset.singleton_subset_iff, List.mem_toFinset]; exact List.mem_map_of_mem (by decide))
/-- A buffer `segC2` does not write keeps its contents through it. -/
theorem segC2_keep (V : Valuation τ sig (Elt F)) (r : Ref sig .tc) (h : r ∉ segC2_W) :
    after segC2 V (Proc.devRef .tc r) = V (Proc.devRef .tc r) :=
  after_of_writes_sub segC2 V segC2_writes h

end Cert.ReferenceIdeal.Hand

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefMath.lean ====
/-
  The reference's dense stages read at an index, over the extended reals.

  A linear layer of the reference is a matrix product of the row-major operand with the TRANSPOSE of an output-major
  [64, 64] weight matrix, plus the bias broadcast in two steps ([64] to [1, 64] to [M, 64]): entry `(r, j)` is
  `Σ_k x(r, k) · W(j, k) + b j`, the row function `Rows.dense` of row `r`. The reference's shifted softplus, entry by
  entry, is `Rows.ssp`.
-/
import proofs.«140131_j18227841204693_2_alg».proof.Proof.Whole
import proofs.«140131_j18227841204693_2_alg».proof.Proof.LibHostMatmulNN
import Idealize.ShloMosaic.Lib.ValueLayout

noncomputable section

open scoped BigOperators

namespace Cert.ReferenceIdeal.Hand

open Idealize.ShloMosaic Idealize.ShloMosaic.ValueIdx

/-- A linear layer of the reference at `(r, j)`: the product with the transposed weights plus the twice-broadcast bias is
    `Rows.dense` of row `r`. -/
theorem linear_apply {M : Nat} (d : DotDims ⟨2, ![M, 64]⟩ ⟨2, ![64, 64]⟩ ⟨2, ![M, 64]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![64, 64]⟩ : Shape).Transposes [1, 0] ⟨2, ![64, 64]⟩)
    (h1 : (⟨1, ![64]⟩ : Shape).BroadcastsInDim ⟨2, ![1, 64]⟩ (![1] : Fin 1 → Fin 2))
    (h2 : (⟨2, ![1, 64]⟩ : Shape).BroadcastsInDim ⟨2, ![M, 64]⟩ (![0, 1] : Fin 2 → Fin 2))
    (x : FVec Ideal ⟨2, ![M, 64]⟩ .f32) (W : FVec Ideal ⟨2, ![64, 64]⟩ .f32) (b : FVec Ideal ⟨1, ![64]⟩ .f32)
    (r : Fin M) (j : Fin 64) :
    addf (Host.dotGeneral (F := Ideal) d none x (transpose ⟨2, ![64, 64]⟩ [1, 0] W ht))
        (broadcastInDim ⟨2, ![M, 64]⟩ ![0, 1] h2 (broadcastInDim ⟨2, ![1, 64]⟩ ![1] h1 b)) (ix2 r j)
      = Rows.dense (fun k => x (ix2 r k)) W (fun q => b (ix1 q)) j := by
  show Host.dotGeneral (F := Ideal) d none x (transpose ⟨2, ![64, 64]⟩ [1, 0] W ht) (ix2 r j)
      + broadcastInDim ⟨2, ![M, 64]⟩ ![0, 1] h2 (broadcastInDim ⟨2, ![1, 64]⟩ ![1] h1 b) (ix2 r j) = _
  rw [Cert.LibHostMatmulNN.hostDot_nn_apply d hlc hrc hln hrn hlb hrb,
    broadcastInDim_apply ![0, 1] h2 _ (ix2 r j) (ix2 0 j) (fun a => match a with | ⟨0, _⟩ => rfl | ⟨1, _⟩ => rfl),
    Cert.LibHostMatmulNN.broadcastInDim_b_ab_apply ![1] h1 rfl b 0 j]
  unfold Rows.dense
  congr 1
  refine Finset.sum_congr rfl fun k _ => ?_
  rw [transpose_ix2_apply]

/-- The reference's shifted softplus at an index: `Rows.ssp` of the operand there. -/
theorem ssp_apply {s : Shape} (h0 : (⟨0, ![]⟩ : Shape).BroadcastsInDim s (![] : Fin 0 → Fin s.rank))
    (z : FVec Ideal s .f32) (i : s.Idx) :
    subf
        (select
          (cmpf .une (subf z (broadcastInDim s ![] h0 (constant (F := Ideal) ⟨0, ![]⟩ .f32 0x00000000#32)))
            (subf z (broadcastInDim s ![] h0 (constant (F := Ideal) ⟨0, ![]⟩ .f32 0x00000000#32))))
          (addf z (broadcastInDim s ![] h0 (constant (F := Ideal) ⟨0, ![]⟩ .f32 0x00000000#32)))
          (addf (maximumf z (broadcastInDim s ![] h0 (constant (F := Ideal) ⟨0, ![]⟩ .f32 0x00000000#32)))
            (Host.log1p (Host.exp (Host.negf (Host.absf
              (subf z (broadcastInDim s ![] h0 (constant (F := Ideal) ⟨0, ![]⟩ .f32 0x00000000#32)))))))))
        (broadcastInDim s ![] h0 (constant (F := Ideal) ⟨0, ![]⟩ .f32 0x3F317218#32)) i
      = Rows.ssp (z i) := by
  have hz : ∀ i, broadcastInDim s ![] h0 (constant (F := Ideal) ⟨0, ![]⟩ .f32 0x00000000#32) i = (0 : EReal) :=
    fun _ => Ideal.ofBits_zero_f32
  show Scalar.select (Ideal.cmp .une (z i - _) (z i - _)) (z i + _) (max (z i) _ + Ideal.log1p (Ideal.exp (-(max (z i - _) (-(z i - _))))))
      - Rows.shift = _
  rw [hz i]
  exact Rows.ssp_reference (z i)

/-- A linear layer on a whole row-major array of 64-entry rows: `Rows.dense` of every row. -/
def lin {M : Nat} (x : FVec Ideal ⟨2, ![M, 64]⟩ .f32) (W : FVec Ideal ⟨2, ![64, 64]⟩ .f32) (b : FVec Ideal ⟨1, ![64]⟩ .f32) :
    FVec Ideal ⟨2, ![M, 64]⟩ .f32 :=
  fun i => Rows.dense (fun k => x (ix2 (i 0) k)) W (fun q => b (ix1 q)) (i 1)

/-- The shifted softplus of every entry of an array. -/
def sspArr {s : Shape} (z : FVec Ideal s .f32) : FVec Ideal s .f32 := fun i => Rows.ssp (z i)

/-- A linear layer of the reference, as a whole array. -/
theorem linear_eq {M : Nat} (d : DotDims ⟨2, ![M, 64]⟩ ⟨2, ![64, 64]⟩ ⟨2, ![M, 64]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![64, 64]⟩ : Shape).Transposes [1, 0] ⟨2, ![64, 64]⟩)
    (h1 : (⟨1, ![64]⟩ : Shape).BroadcastsInDim ⟨2, ![1, 64]⟩ (![1] : Fin 1 → Fin 2))
    (h2 : (⟨2, ![1, 64]⟩ : Shape).BroadcastsInDim ⟨2, ![M, 64]⟩ (![0, 1] : Fin 2 → Fin 2))
    (x : FVec Ideal ⟨2, ![M, 64]⟩ .f32) (W : FVec Ideal ⟨2, ![64, 64]⟩ .f32) (b : FVec Ideal ⟨1, ![64]⟩ .f32) :
    addf (Host.dotGeneral (F := Ideal) d none x (transpose ⟨2, ![64, 64]⟩ [1, 0] W ht))
        (broadcastInDim ⟨2, ![M, 64]⟩ ![0, 1] h2 (broadcastInDim ⟨2, ![1, 64]⟩ ![1] h1 b))
      = lin x W b := by
  funext i
  obtain ⟨r, j, rfl⟩ : ∃ r j, i = ix2 r j := ⟨i 0, i 1, eq_ix2 i⟩
  exact linear_apply d hlc hrc hln hrn hlb hrb ht h1 h2 x W b r j

/-- The reference's shifted softplus, as a whole array. -/
theorem ssp_eq {s : Shape} (h0 : (⟨0, ![]⟩ : Shape).BroadcastsInDim s (![] : Fin 0 → Fin s.rank)) (z : FVec Ideal s .f32) :
    subf
        (select
          (cmpf .une (subf z (broadcastInDim s ![] h0 (constant (F := Ideal) ⟨0, ![]⟩ .f32 0x00000000#32)))
            (subf z (broadcastInDim s ![] h0 (constant (F := Ideal) ⟨0, ![]⟩ .f32 0x00000000#32))))
          (addf z (broadcastInDim s ![] h0 (constant (F := Ideal) ⟨0, ![]⟩ .f32 0x00000000#32)))
          (addf (maximumf z (broadcastInDim s ![] h0 (constant (F := Ideal) ⟨0, ![]⟩ .f32 0x00000000#32)))
            (Host.log1p (Host.exp (Host.negf (Host.absf
              (subf z (broadcastInDim s ![] h0 (constant (F := Ideal) ⟨0, ![]⟩ .f32 0x00000000#32)))))))))
        (broadcastInDim s ![] h0 (constant (F := Ideal) ⟨0, ![]⟩ .f32 0x3F317218#32))
      = sspArr z :=
  funext (ssp_apply h0 z)

/-! The three stages of `Whole` are compositions of `lin` and `sspArr`. -/

theorem nodeArr_eq (x : Whole.NodeArr) (W : Whole.Mat) (b : Whole.Bias) : Whole.nodeArr x W b = lin x W b := rfl

theorem outArr_eq (ag : Whole.NodeArr) (Wc : Whole.Mat) (bc : Whole.Bias) (Wp : Whole.Mat) (bp : Whole.Bias) :
    Whole.outArr ag Wc bc Wp bp = lin (sspArr (lin ag Wc bc)) Wp bp := rfl

theorem edgeArr_eq (ef hs : Whole.EdgeArr) (W1 : Whole.Mat) (b1 : Whole.Bias) (W2 : Whole.Mat) (b2 : Whole.Bias) :
    Whole.edgeArr ef hs W1 b1 W2 b2 = mulf (F := Ideal) hs (sspArr (lin (sspArr (lin ef W1 b1)) W2 b2)) := by
  funext i
  obtain ⟨r, j, rfl⟩ : ∃ r j, i = ix2 r j := ⟨i 0, i 1, eq_ix2 i⟩
  rfl

end Cert.ReferenceIdeal.Hand

end
-- ==== Proof.RefValue.lean ====
/-
  The reference program's result as a whole-array function of its arguments.

  The run of the 90 host operations ends with every buffer at the fold of the operations' results over the launch
  contents. The fold is read one segment at a time, each segment for ANY contents before it: the node projection is the
  whole-array linear layer `lin`, each edge-filter layer and the first output layer a linear layer followed by the
  shifted softplus entry by entry (`sspArr`), the last layer a linear layer; the index fix-up, the gather and the
  scatter-add are kept as the reference's own host terms. Composed, the result buffer holds `refOut`: the three dense
  stages `Whole.nodeArr`, `Whole.edgeArr`, `Whole.outArr` around the gather and the scatter-add; the arguments are
  unchanged.
-/
import proofs.«140131_j18227841204693_2_alg».proof.Proof.RefOps
import proofs.«140131_j18227841204693_2_alg».proof.Proof.RefMath

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Each segment's result, from any contents -/

/-- After `segA`, `main_v4` holds the node projection of the arguments. -/
theorem segA_v4 (V : Valuation τ sig (Elt Ideal)) :
    after (segA (F := Ideal)) V (no_index (Proc.devRef .tc main_v4))
      = lin (V (Proc.devRef .tc main_arg0)) (V (Proc.devRef .tc main_arg4)) (V (Proc.devRef .tc main_arg5)) := by
  after_results
  exact linear_eq dot_S50000x64_S64x64_S50000x64_1_0_0_1_n_n rfl rfl rfl rfl rfl rfl _ _ _ _ _ _

/-- After `segA`, `main_v11` holds the gather of the node projection's rows at the fixed-up indices. -/
theorem segA_v11 (V : Valuation τ sig (Elt Ideal)) :
    after (segA (F := Ideal)) V (no_index (Proc.devRef .tc main_v11))
      = Host.gather gather_S50000x64_S800000x1_S800000x64_1_0_n_n_0_1_164
          (lin (V (Proc.devRef .tc main_arg0)) (V (Proc.devRef .tc main_arg4)) (V (Proc.devRef .tc main_arg5)))
          (broadcastInDim S800000x1 ![0] bcast_S800000_S800000x1_0
            (select (cmpi .slt (V (Proc.devRef .tc main_arg2)) (broadcastInDim S800000 ![] bcast_S_S800000 (constantI S_ 32 0#32)))
              (addi (V (Proc.devRef .tc main_arg2)) (broadcastInDim S800000 ![] bcast_S_S800000 (constantI S_ 32 50000#32))) (V (Proc.devRef .tc main_arg2)))) := by
  after_results
  exact congrArg (fun h => Host.gather gather_S50000x64_S800000x1_S800000x64_1_0_n_n_0_1_164 h _)
    (linear_eq dot_S50000x64_S64x64_S50000x64_1_0_0_1_n_n rfl rfl rfl rfl rfl rfl _ _ _ _ _ _)

/-- After `segB1`, `main_v19` holds the first filter layer of the edge features. -/
theorem segB1_v19 (V : Valuation τ sig (Elt Ideal)) :
    after (segB1 (F := Ideal)) V (no_index (Proc.devRef .tc main_v19))
      = sspArr (lin (V (Proc.devRef .tc main_arg1)) (V (Proc.devRef .tc main_arg6)) (V (Proc.devRef .tc main_arg7))) := by
  after_results_simp
  exact (ssp_eq _ _).trans (congrArg sspArr (linear_eq dot_S800000x64_S64x64_S800000x64_1_0_0_1_n_n rfl rfl rfl rfl rfl rfl _ _ _ _ _ _))

/-- After `segB2`, `main_v27` holds the second filter layer of what `main_v19` held. -/
theorem segB2_v27 (V : Valuation τ sig (Elt Ideal)) :
    after (segB2 (F := Ideal)) V (no_index (Proc.devRef .tc main_v27))
      = sspArr (lin (V (Proc.devRef .tc main_v19)) (V (Proc.devRef .tc main_arg8)) (V (Proc.devRef .tc main_arg9))) := by
  after_results_simp
  exact (ssp_eq _ _).trans (congrArg sspArr (linear_eq dot_S800000x64_S64x64_S800000x64_1_0_0_1_n_n rfl rfl rfl rfl rfl rfl _ _ _ _ _ _))

/-- After `segB3`, `main_v31` holds the scatter-add of the gathered rows times the filter. -/
theorem segB3_v31 (V : Valuation τ sig (Elt Ideal)) :
    after (segB3 (F := Ideal)) V (no_index (Proc.devRef .tc main_v31))
      = Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (V (Proc.devRef .tc main_arg3)))
          (mulf (F := Ideal) (V (Proc.devRef .tc main_v11)) (V (Proc.devRef .tc main_v27))) := by
  after_results

/-- After `segC1`, `main_v39` holds the first output layer of what `main_v31` held. -/
theorem segC1_v39 (V : Valuation τ sig (Elt Ideal)) :
    after (segC1 (F := Ideal)) V (no_index (Proc.devRef .tc main_v39))
      = sspArr (lin (V (Proc.devRef .tc main_v31)) (V (Proc.devRef .tc main_arg10)) (V (Proc.devRef .tc main_arg11))) := by
  after_results_simp
  exact (ssp_eq _ _).trans (congrArg sspArr (linear_eq dot_S50000x64_S64x64_S50000x64_1_0_0_1_n_n rfl rfl rfl rfl rfl rfl _ _ _ _ _ _))

/-- After `segC2`, `main_v44` holds the last linear layer of what `main_v39` held. -/
theorem segC2_v44 (V : Valuation τ sig (Elt Ideal)) :
    after (segC2 (F := Ideal)) V (no_index (Proc.devRef .tc main_v44))
      = lin (V (Proc.devRef .tc main_v39)) (V (Proc.devRef .tc main_arg12)) (V (Proc.devRef .tc main_arg13)) := by
  after_results
  exact linear_eq dot_S50000x64_S64x64_S50000x64_1_0_0_1_n_n rfl rfl rfl rfl rfl rfl _ _ _ _ _ _

theorem segA_keep' (V : Valuation τ sig (Elt Ideal)) (r : Ref sig .tc) (h : r ∉ segA_W) :
    after (segA (F := Ideal)) V (no_index (Proc.devRef .tc r)) = V (Proc.devRef .tc r) := segA_keep V r h
theorem segB1_keep' (V : Valuation τ sig (Elt Ideal)) (r : Ref sig .tc) (h : r ∉ segB1_W) :
    after (segB1 (F := Ideal)) V (no_index (Proc.devRef .tc r)) = V (Proc.devRef .tc r) := segB1_keep V r h
theorem segB2_keep' (V : Valuation τ sig (Elt Ideal)) (r : Ref sig .tc) (h : r ∉ segB2_W) :
    after (segB2 (F := Ideal)) V (no_index (Proc.devRef .tc r)) = V (Proc.devRef .tc r) := segB2_keep V r h
theorem segB3_keep' (V : Valuation τ sig (Elt Ideal)) (r : Ref sig .tc) (h : r ∉ segB3_W) :
    after (segB3 (F := Ideal)) V (no_index (Proc.devRef .tc r)) = V (Proc.devRef .tc r) := segB3_keep V r h
theorem segC1_keep' (V : Valuation τ sig (Elt Ideal)) (r : Ref sig .tc) (h : r ∉ segC1_W) :
    after (segC1 (F := Ideal)) V (no_index (Proc.devRef .tc r)) = V (Proc.devRef .tc r) := segC1_keep V r h
theorem segC2_keep' (V : Valuation τ sig (Elt Ideal)) (r : Ref sig .tc) (h : r ∉ segC2_W) :
    after (segC2 (F := Ideal)) V (no_index (Proc.devRef .tc r)) = V (Proc.devRef .tc r) := segC2_keep V r h

/-! ## The whole line -/

/-- The result buffer after the whole line, from any contents: the three dense stages around the reference's own
    gather and scatter-add. -/
theorem value (V : Valuation τ sig (Elt Ideal)) :
    after (ops (F := Ideal)) V (Proc.devRef .tc main_v44)
      = Whole.outArr
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 (V (Proc.devRef .tc main_arg3)))
      (Whole.edgeArr (V (Proc.devRef .tc main_arg1))
        (Host.gather gather_S50000x64_S800000x1_S800000x64_1_0_n_n_0_1_164 (Whole.nodeArr (V (Proc.devRef .tc main_arg0)) (V (Proc.devRef .tc main_arg4)) (V (Proc.devRef .tc main_arg5)))
          (broadcastInDim S800000x1 ![0] bcast_S800000_S800000x1_0
            (select (cmpi .slt (V (Proc.devRef .tc main_arg2)) (broadcastInDim S800000 ![] bcast_S_S800000 (constantI S_ 32 0#32)))
              (addi (V (Proc.devRef .tc main_arg2)) (broadcastInDim S800000 ![] bcast_S_S800000 (constantI S_ 32 50000#32))) (V (Proc.devRef .tc main_arg2)))))
        (V (Proc.devRef .tc main_arg6)) (V (Proc.devRef .tc main_arg7)) (V (Proc.devRef .tc main_arg8)) (V (Proc.devRef .tc main_arg9))))
    (V (Proc.devRef .tc main_arg10)) (V (Proc.devRef .tc main_arg11)) (V (Proc.devRef .tc main_arg12)) (V (Proc.devRef .tc main_arg13)) := by
  rw [ops_eq, nodeArr_eq, edgeArr_eq, outArr_eq]
  simp (disch := decide) only [after_append, segC2_v44, segC1_v39, segB3_v31, segB2_v27, segB1_v19, segA_v11,
    segA_keep', segB1_keep', segB2_keep', segB3_keep', segC1_keep', segC2_keep']

/-- An argument buffer after the whole line is as it was. -/
theorem arg_kept (V : Valuation τ sig (Elt Ideal)) (r : Ref sig .tc) (hA : r ∉ segA_W) (hB1 : r ∉ segB1_W) (hB2 : r ∉ segB2_W) (hB3 : r ∉ segB3_W)
    (hC1 : r ∉ segC1_W) (hC2 : r ∉ segC2_W) :
    after (ops (F := Ideal)) V (Proc.devRef .tc r) = V (Proc.devRef .tc r) := by
  rw [ops_eq, after_append, after_append, after_append, after_append, after_append,
    segC2_keep _ r hC2, segC1_keep _ r hC1, segB3_keep _ r hB3, segB2_keep _ r hB2, segB1_keep _ r hB1, segA_keep _ r hA]

/-! ## The run -/

/-- What the reference leaves in its result buffer on device `c`, from launch memory `m`. -/
def refOut (m : (ℓ : Loc nD τ sig) → Buf (Elt Ideal) ℓ) (c : Dev nD) : Buf (Elt Ideal) ((c.tc : Thread nD τ).loc main_v44) :=
  Whole.outArr
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 (m ((c.tc : Thread nD τ).loc main_arg3)))
      (Whole.edgeArr (m ((c.tc : Thread nD τ).loc main_arg1))
        (Host.gather gather_S50000x64_S800000x1_S800000x64_1_0_n_n_0_1_164 (Whole.nodeArr (m ((c.tc : Thread nD τ).loc main_arg0)) (m ((c.tc : Thread nD τ).loc main_arg4)) (m ((c.tc : Thread nD τ).loc main_arg5)))
          (broadcastInDim S800000x1 ![0] bcast_S800000_S800000x1_0
            (select (cmpi .slt (m ((c.tc : Thread nD τ).loc main_arg2)) (broadcastInDim S800000 ![] bcast_S_S800000 (constantI S_ 32 0#32)))
              (addi (m ((c.tc : Thread nD τ).loc main_arg2)) (broadcastInDim S800000 ![] bcast_S_S800000 (constantI S_ 32 50000#32))) (m ((c.tc : Thread nD τ).loc main_arg2)))))
        (m ((c.tc : Thread nD τ).loc main_arg6)) (m ((c.tc : Thread nD τ).loc main_arg7)) (m ((c.tc : Thread nD τ).loc main_arg8)) (m ((c.tc : Thread nD τ).loc main_arg9))))
    (m ((c.tc : Thread nD τ).loc main_arg10)) (m ((c.tc : Thread nD τ).loc main_arg11)) (m ((c.tc : Thread nD τ).loc main_arg12)) (m ((c.tc : Thread nD τ).loc main_arg13))

/-- On every device, from any memory with zero counters: every weakly fair execution of @main terminates with the
    result buffer at `refOut` and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v44).trans (value (launchContents m c)),
      (h c main_arg0).trans (arg_kept (launchContents m c) main_arg0 (by decide) (by decide) (by decide) (by decide) (by decide) (by decide)),
      (h c main_arg1).trans (arg_kept (launchContents m c) main_arg1 (by decide) (by decide) (by decide) (by decide) (by decide) (by decide)),
      (h c main_arg2).trans (arg_kept (launchContents m c) main_arg2 (by decide) (by decide) (by decide) (by decide) (by decide) (by decide)),
      (h c main_arg3).trans (arg_kept (launchContents m c) main_arg3 (by decide) (by decide) (by decide) (by decide) (by decide) (by decide)),
      (h c main_arg4).trans (arg_kept (launchContents m c) main_arg4 (by decide) (by decide) (by decide) (by decide) (by decide) (by decide)),
      (h c main_arg5).trans (arg_kept (launchContents m c) main_arg5 (by decide) (by decide) (by decide) (by decide) (by decide) (by decide)),
      (h c main_arg6).trans (arg_kept (launchContents m c) main_arg6 (by decide) (by decide) (by decide) (by decide) (by decide) (by decide)),
      (h c main_arg7).trans (arg_kept (launchContents m c) main_arg7 (by decide) (by decide) (by decide) (by decide) (by decide) (by decide)),
      (h c main_arg8).trans (arg_kept (launchContents m c) main_arg8 (by decide) (by decide) (by decide) (by decide) (by decide) (by decide)),
      (h c main_arg9).trans (arg_kept (launchContents m c) main_arg9 (by decide) (by decide) (by decide) (by decide) (by decide) (by decide)),
      (h c main_arg10).trans (arg_kept (launchContents m c) main_arg10 (by decide) (by decide) (by decide) (by decide) (by decide) (by decide)),
      (h c main_arg11).trans (arg_kept (launchContents m c) main_arg11 (by decide) (by decide) (by decide) (by decide) (by decide) (by decide)),
      (h c main_arg12).trans (arg_kept (launchContents m c) main_arg12 (by decide) (by decide) (by decide) (by decide) (by decide) (by decide)),
      (h c main_arg13).trans (arg_kept (launchContents m c) main_arg13 (by decide) (by decide) (by decide) (by decide) (by decide) (by decide))⟩)
    (run_seq scopedRefs_eq scopedSems_eq defs main (fun _ => ops) main_eq (fun _ => ops_sub) m ρ)

end Cert.ReferenceIdeal.Hand

end
-- ==== Proof.lean ====
/-
  The certificate: the kernel program (a node projection, an edge filter and an output projection as three tiled kernel
  regions, with a host gather and a host scatter-add between them) against the plain reference, over the extended reals.

  Both programs compute, for node features `x`, edge features `e`, source and destination indices `src`, `dst`:
  `h = x · Wnᵀ + bn`; for every edge the message `h[src] · ssp (ssp (e · We1ᵀ + be1) · We2ᵀ + be2)`; the sum of the messages
  per destination node; and `ssp (agg · Wcᵀ + bc) · Wpᵀ + bp`, where `ssp z = max z 0 + log (1 + exp (-|z|)) - c` with the same
  word `c` in both. The kernel works on tiles of whole rows in narrower float formats; over the extended reals a change of
  format is the identity, a product accumulated from zero is the plain sum of products, and every stage acts row by row, so
  each region's array is the same whole-array function the reference's host operations compute (`Whole.nodeArr`,
  `Whole.edgeArr`, `Whole.outArr`). The index fix-up, the gather and the scatter-add are the same host operations on both
  sides and are never opened. No step needs the inputs to be finite: only commutativity and associativity of the sums are
  used, never distributivity.
-/
import proofs.«140131_j18227841204693_2_alg».proof.Defs
import proofs.«140131_j18227841204693_2_alg».proof.Proof.Gen.Kernel
import proofs.«140131_j18227841204693_2_alg».proof.Proof.Gen.Kernel.Frame
import proofs.«140131_j18227841204693_2_alg».proof.Proof.Gen.KernelIdeal
import proofs.«140131_j18227841204693_2_alg».proof.Proof.Gen.KernelIdeal.Frame
import proofs.«140131_j18227841204693_2_alg».proof.Proof.Gen.ReferenceIdeal
import proofs.«140131_j18227841204693_2_alg».proof.Proof.Gen.Pre_finite_inputs
import proofs.«140131_j18227841204693_2_alg».proof.Proof.Glue
import proofs.«140131_j18227841204693_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories agreeing on the arguments both programs end with the same result: the kernel's `kerOut` and the
    reference's `refOut` are one term of the argument arrays. -/
theorem algebraic : Cert.algebraic_KernelIdeal_ReferenceIdeal := by
  intro m ρ m' ρ' _ hagree
  refine ⟨fun c => Cert.KernelIdeal.Glue.kerOut m c, Cert.KernelIdeal.Glue.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10, e11, e12, e13⟩ := hagree c
  unfold Cert.ReferenceIdeal.Hand.refOut Cert.KernelIdeal.Glue.kerOut
  rw [e0, e1, e2, e3, e4, e5, e6, e7, e8, e9, e10, e11, e12, e13]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
